-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg11 : FVec F S128x128 .f32) (main_arg12 : FVec F S128 .f32) (main_arg13 : FVec F S128x1 .f32) (main_arg14 : FVec F S1 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg13
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg14
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg8 : FVec F S128x64 .f32) (main_arg9 : FVec F S128x64 .f32) (main_arg10 : FVec F S64 .f32) (main_arg11 : FVec F S128x128 .f32) (main_arg12 : FVec F S128 .f32) (main_arg13 : FVec F S128x1 .f32) (main_arg14 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg8
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg9
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_v33

def fn {F : FTy → Type} [FloatOps F] (main_arg0 : FVec F S100000x128 .f32) (main_arg1 : IVec S1600000 32) (main_arg2 : IVec S1600000 32) (main_arg3 : IVec S1600000 32) (main_arg4 : IVec S1600000 32) (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_arg11 : FVec F S128x128 .f32) (main_arg12 : FVec F S128 .f32) (main_arg13 : FVec F S128x1 .f32) (main_arg14 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S64x128 : Shape := ⟨2, ![64, 128]⟩
abbrev S1x1 : Shape := ⟨2, ![1, 1]⟩
abbrev S8000x64 : Shape := ⟨2, ![8000, 64]⟩
abbrev S8000x1 : Shape := ⟨2, ![8000, 1]⟩
abbrev S8000x128 : Shape := ⟨2, ![8000, 128]⟩

abbrev nBuf : Space → Nat
  | .hbm => 87
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .bf16⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .bf16⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x64, .bf16⟩
  | .hbm, ⟨82, _⟩ => ⟨S64x128, .f32⟩
  | .hbm, ⟨83, _⟩ => ⟨S64x128, .f32⟩
  | .hbm, ⟨84, _⟩ => ⟨S1x128, .f32⟩
  | .hbm, ⟨85, _⟩ => ⟨S1x1, .f32⟩
  | .hbm, ⟨86, _⟩ => ⟨S1600000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128x64, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x64, .f32⟩
  | .local _ .vmem, ⟨11, _⟩ => ⟨S5000x64, .f32⟩
  | .local _ .vmem, ⟨12, _⟩ => ⟨S5000x128, .f32⟩
  | .local _ .vmem, ⟨13, _⟩ => ⟨S5000x128, .f32⟩
  | .local _ .vmem, ⟨14, _⟩ => ⟨S5000x64, .f32⟩
  | .local _ .vmem, ⟨15, _⟩ => ⟨S5000x64, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S8000x64, .bf16⟩
  | .local _ .vmem, ⟨21, _⟩ => ⟨S8000x64, .bf16⟩
  | .local _ .vmem, ⟨22, _⟩ => ⟨S8000x64, .bf16⟩
  | .local _ .vmem, ⟨23, _⟩ => ⟨S8000x64, .bf16⟩
  | .local _ .vmem, ⟨24, _⟩ => ⟨S64x128, .f32⟩
  | .local _ .vmem, ⟨25, _⟩ => ⟨S64x128, .f32⟩
  | .local _ .vmem, ⟨26, _⟩ => ⟨S1x128, .f32⟩
  | .local _ .vmem, ⟨27, _⟩ => ⟨S128x1, .f32⟩
  | .local _ .vmem, ⟨28, _⟩ => ⟨S1x1, .f32⟩
  | .local _ .vmem, ⟨29, _⟩ => ⟨S8000x1, .f32⟩
  | .local _ .vmem, ⟨30, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22_0 : Ref sig .tc := ⟨.hbm, 44, rfl⟩
abbrev main_v22_1 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_c_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_c_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S128x128_S64x128_0_0 : S128x128.Slices ![0, 0] S64x128
  slices_S128x128_S64x128_64_0 : S128x128.Slices ![64, 0] S64x128
  shapeCasts_S1_S1x1 : S1.ShapeCasts S1x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S8000x128 : S1x128.Broadcasts S8000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S8000x64_S64x128_S8000x128_1_0_0_1_n_n_wf : DotDims.WF S8000x64 S64x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .bf16 = 32 ∨ (Rect.block (s := S1600000x64) S8000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .bf16 = 32 ∨ (Rect.block (s := S1600000x64) S8000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8000x1.size a ≤ S1600000x1.size a
  hwx2_7 : ∀ i : grid2.Coords, EltTy.bits .f32 = 32 ∨ (Rect.block (s := S1600000x1) S8000x1.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v56) S8000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩
abbrev S1600000x64 : Shape := ⟨2, ![1600000, 64]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x64, .f32⟩
  | .hbm, ⟨94, _⟩ => ⟨S1600000x128, .f32⟩
  | .hbm, ⟨95, _⟩ => ⟨S1600000x128, .f32⟩
  | .hbm, ⟨96, _⟩ => ⟨S1x128, .f32⟩
  | .hbm, ⟨97, _⟩ => ⟨S1600000x128, .f32⟩
  | .hbm, ⟨98, _⟩ => ⟨S1600000x128, .f32⟩
  | .hbm, ⟨99, _⟩ => ⟨S_, .f32⟩
  | .hbm, ⟨100, _⟩ => ⟨S1600000x128, .f32⟩
  | .hbm, ⟨101, _⟩ => ⟨S1600000x128, .f32⟩
  | .hbm, ⟨102, _⟩ => ⟨S1600000x1, .f32⟩
  | .hbm, ⟨103, _⟩ => ⟨S1x1, .f32⟩
  | .hbm, ⟨104, _⟩ => ⟨S1600000x1, .f32⟩
  | .hbm, ⟨105, _⟩ => ⟨S1600000x1, .f32⟩
  | .hbm, ⟨106, _⟩ => ⟨S1600000x1, .f32⟩
  | .hbm, ⟨107, _⟩ => ⟨S1600000x1, .f32⟩
  | .hbm, ⟨108, _⟩ => ⟨S_, .f32⟩
  | .hbm, ⟨109, _⟩ => ⟨S1600000x1, .f32⟩
  | .hbm, ⟨110, _⟩ => ⟨S1600000x1, .f32⟩
  | .hbm, ⟨111, _⟩ => ⟨S_, .f32⟩
  | .hbm, ⟨112, _⟩ => ⟨S1600000x1, .f32⟩
  | .hbm, ⟨113, _⟩ => ⟨S1600000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call0_cst : Ref sig .tc := ⟨.hbm, 49, rfl⟩
abbrev main_call0_v0 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_cst : Ref sig .tc := ⟨.hbm, 73, rfl⟩
abbrev main_call1_v0 : Ref sig .tc := ⟨.hbm, 74, rfl⟩
abbrev main_v46 : Ref sig .tc := ⟨.hbm, 75, rfl⟩
abbrev main_c_8 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_10 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call2_cst : Ref sig .tc := ⟨.hbm, 99, rfl⟩
abbrev main_call2_v0 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_cst_13 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S1600000x64_S1600000x64_S1600000x128_d1 : Shape.Concatenates [S1600000x64, S1600000x64] S1600000x128 1
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x128_S1600000x128_1_0_0_1_n_n_wf : DotDims.WF S1600000x128 S128x128 S1600000x128 [1] [0] [0] [1] [] []
  dot_S1600000x128_S128x1_S1600000x1_1_0_0_1_n_n_wf : DotDims.WF S1600000x128 S128x1 S1600000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf

class Facts : Prop extends Facts₀ where

variable [Facts]
-- ==== Proof.KRun.lean ====
/-
  The idealized kernel's run with its two results named. The program is three kernel regions among stretches of host
  operations; the contents of every unscoped buffer after the last region are the fold W6 of the generated frame (each
  stretch applied to the contents before it, each region's arrays at what its write-backs leave). Here the run is stated with
  the score array and the embedding array read at that fold, beside the fifteen arguments ending as launched.
-/
import proofs.«112630_j80642305949836_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the score array and the embedding array end at
    the fold's contents, and the arguments as launched. -/
theorem run : θ_run defs (onTc (τ := τ) (main (F := F))) ⟨m, fun _ => 0, ρ⟩ (fun r => ∀ c : Dev nD,
      r.2.mem ((c.tc : Thread nD τ).loc main_v56) = W6 m ρ c (Proc.devRef .tc main_v56)
      ∧ r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v56 (by decide)),
       h c _ (mem_uc main_v36 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.KRun

end
-- ==== Proof.Spec.lean ====
/-
  The three stages of the graph model as functions of whole matrices of extended reals, index by index; every extent is a
  parameter, so one definition describes a block of rows and the whole array alike. Nothing here mentions a program.

  * layerTwo X A Ws Wn B: at (p, q) the larger of ((sum_k X(p,k) Ws(k,q)) + (sum_k A(p,k) Wn(k,q))) + B(0,q) and zero: a
    dense layer on node features X and aggregated neighbour features A, the bias kept as a one-row matrix.
  * proj H W: at (p, q) the sum over k of H(p,k) W(k,q).
  * layerAdd H A Ws B: at (p, q) the larger of ((sum_k H(p,k) Ws(k,q)) + A(p,q)) + B(0,q) and zero: the second layer when the
    neighbour term arrives already projected.
  * edgeScore Xs Xd Wa Wb B1 W2 B2: at (e, u) the logistic function of (sum_j h(e,j) W2(j,u)) + B2(0,u), where h(e,j) is the
    larger of ((sum_k Xs(e,k) Wa(k,j)) + (sum_k Xd(e,k) Wb(k,j))) + B1(0,j) and zero.
  * rowMat b: a vector as a matrix of one row; rowsFrom A off W: A consecutive rows of W from row off.
  Row p of each result reads only row p of the row-indexed operands: a stage applied to a block of consecutive rows is that
  block of rows of the stage applied to the whole matrices.
-/
import Idealize.ShloMosaic.PureOps.Ideal
import Idealize.ShloMosaic.Lib.ValueIdx

noncomputable section

namespace Cert.Spec

open Idealize.ShloMosaic Idealize.ShloMosaic.ValueIdx
open scoped BigOperators

/-- A matrix of R rows and C columns of extended reals. -/
abbrev Mat (R C : ℕ) := (⟨2, ![R, C]⟩ : Shape).Idx → EReal

/-- The single-precision zero. -/
abbrev z32 : EReal := Ideal.ofBits .f32 0x00000000#32

/-- Row p of H against column q of W. -/
def dotAt {R K N : ℕ} (H : Mat R K) (W : Mat K N) (p : Fin R) (q : Fin N) : EReal :=
  ∑ k : Fin K, H (ix2 p k) * W (ix2 k q)

/-- The product of two matrices. -/
def proj {R K N : ℕ} (H : Mat R K) (W : Mat K N) : Mat R N := fun i => dotAt H W (i 0) (i 1)

/-- A rectified dense layer on two row-indexed operands, the bias a one-row matrix. -/
def layerTwo {R K N : ℕ} (X A : Mat R K) (Ws Wn : Mat K N) (B : Mat 1 N) : Mat R N := fun i =>
  max ((dotAt X Ws (i 0) (i 1) + dotAt A Wn (i 0) (i 1)) + B (ix2 (0 : Fin 1) (i 1))) z32

/-- A rectified dense layer whose second term is already a matrix of the result's shape. -/
def layerAdd {R K N : ℕ} (H : Mat R K) (A : Mat R N) (Ws : Mat K N) (B : Mat 1 N) : Mat R N := fun i =>
  max ((dotAt H Ws (i 0) (i 1) + A (ix2 (i 0) (i 1))) + B (ix2 (0 : Fin 1) (i 1))) z32

/-- The hidden layer of the edge scorer at (e, j). -/
def hiddenAt {R C M : ℕ} (Xs Xd : Mat R C) (Wa Wb : Mat C M) (B1 : Mat 1 M) (e : Fin R) (j : Fin M) : EReal :=
  max ((dotAt Xs Wa e j + dotAt Xd Wb e j) + B1 (ix2 (0 : Fin 1) j)) z32

/-- The edge scorer: hidden layer, output layer, logistic function. -/
def edgeScore {R C M U : ℕ} (Xs Xd : Mat R C) (Wa Wb : Mat C M) (B1 : Mat 1 M) (W2 : Mat M U) (B2 : Mat 1 U) : Mat R U := fun i =>
  Ideal.logistic ((∑ j : Fin M, hiddenAt Xs Xd Wa Wb B1 (i 0) j * W2 (ix2 j (i 1))) + B2 (ix2 (0 : Fin 1) (i 1)))

/-- A vector laid out as a matrix of one row. -/
def rowMat {N : ℕ} (b : (⟨1, ![N]⟩ : Shape).Idx → EReal) : Mat 1 N := fun i => b (ix1 (i 1))

theorem rowMat_apply {N : ℕ} (b : (⟨1, ![N]⟩ : Shape).Idx → EReal) (u : Fin 1) (q : Fin N) : rowMat b (ix2 u q) = b (ix1 q) := rfl

/-- A consecutive rows of a matrix, starting at row off. -/
def rowsFrom {R M : ℕ} (A off : ℕ) (h : off + A ≤ R) (W : Mat R M) : Mat A M := fun i =>
  W (ix2 (⟨off + (i 0).val, by have h0 : (i 0).val < A := (i 0).isLt; omega⟩ : Fin R) (i 1))

theorem rowsFrom_apply {R M : ℕ} (A off : ℕ) (h : off + A ≤ R) (W : Mat R M) (k : Fin A) (j : Fin M) :
    rowsFrom A off h W (ix2 k j) = W (ix2 (⟨off + k.val, by have := k.isLt; omega⟩ : Fin R) j) := rfl

/-! ## Row-locality -/

theorem dotAt_congr {R R' K N : ℕ} (H : Mat R K) (H' : Mat R' K) (W : Mat K N) (p : Fin R) (p' : Fin R')
    (h : ∀ k : Fin K, H (ix2 p k) = H' (ix2 p' k)) (q : Fin N) : dotAt H W p q = dotAt H' W p' q := by
  unfold dotAt
  exact Finset.sum_congr rfl fun k _ => by rw [h k]

theorem proj_row {R R' K N : ℕ} (H : Mat R K) (H' : Mat R' K) (W : Mat K N) (p : Fin R) (p' : Fin R')
    (h : ∀ k : Fin K, H (ix2 p k) = H' (ix2 p' k)) (q : Fin N) : proj H W (ix2 p q) = proj H' W (ix2 p' q) :=
  dotAt_congr H H' W p p' h q

theorem layerTwo_row {R R' K N : ℕ} (X A : Mat R K) (X' A' : Mat R' K) (Ws Wn : Mat K N) (B : Mat 1 N) (p : Fin R) (p' : Fin R')
    (hX : ∀ k : Fin K, X (ix2 p k) = X' (ix2 p' k)) (hA : ∀ k : Fin K, A (ix2 p k) = A' (ix2 p' k)) (q : Fin N) :
    layerTwo X A Ws Wn B (ix2 p q) = layerTwo X' A' Ws Wn B (ix2 p' q) := by
  show max ((dotAt X Ws p q + dotAt A Wn p q) + B (ix2 (0 : Fin 1) q)) z32 = max ((dotAt X' Ws p' q + dotAt A' Wn p' q) + B (ix2 (0 : Fin 1) q)) z32
  rw [dotAt_congr X X' Ws p p' hX q, dotAt_congr A A' Wn p p' hA q]

theorem layerAdd_row {R R' K N : ℕ} (H : Mat R K) (H' : Mat R' K) (A : Mat R N) (A' : Mat R' N) (Ws : Mat K N) (B : Mat 1 N)
    (p : Fin R) (p' : Fin R') (hH : ∀ k : Fin K, H (ix2 p k) = H' (ix2 p' k)) (q : Fin N) (hA : A (ix2 p q) = A' (ix2 p' q)) :
    layerAdd H A Ws B (ix2 p q) = layerAdd H' A' Ws B (ix2 p' q) := by
  show max ((dotAt H Ws p q + A (ix2 p q)) + B (ix2 (0 : Fin 1) q)) z32 = max ((dotAt H' Ws p' q + A' (ix2 p' q)) + B (ix2 (0 : Fin 1) q)) z32
  rw [dotAt_congr H H' Ws p p' hH q, hA]

theorem edgeScore_row {R R' C M U : ℕ} (Xs Xd : Mat R C) (Xs' Xd' : Mat R' C) (Wa Wb : Mat C M) (B1 : Mat 1 M) (W2 : Mat M U) (B2 : Mat 1 U)
    (e : Fin R) (e' : Fin R') (hs : ∀ k : Fin C, Xs (ix2 e k) = Xs' (ix2 e' k)) (hd : ∀ k : Fin C, Xd (ix2 e k) = Xd' (ix2 e' k)) (u : Fin U) :
    edgeScore Xs Xd Wa Wb B1 W2 B2 (ix2 e u) = edgeScore Xs' Xd' Wa Wb B1 W2 B2 (ix2 e' u) := by
  show Ideal.logistic ((∑ j : Fin M, hiddenAt Xs Xd Wa Wb B1 e j * W2 (ix2 j u)) + B2 (ix2 (0 : Fin 1) u))
    = Ideal.logistic ((∑ j : Fin M, hiddenAt Xs' Xd' Wa Wb B1 e' j * W2 (ix2 j u)) + B2 (ix2 (0 : Fin 1) u))
  have hh : ∀ j : Fin M, hiddenAt Xs Xd Wa Wb B1 e j = hiddenAt Xs' Xd' Wa Wb B1 e' j := fun j => by
    unfold hiddenAt
    rw [dotAt_congr Xs Xs' Wa e e' hs j, dotAt_congr Xd Xd' Wb e e' hd j]
  rw [Finset.sum_congr rfl fun j _ => by rw [hh j]]

end Cert.Spec

end
-- ==== Proof.SpecCongr.lean ====
/-
  Equal operands give equal stages: the congruence of each stage of Spec in all its operands at once.
-/
import proofs.«112630_j80642305949836_2_alg».proof.Proof.Spec

noncomputable section

namespace Cert.Spec

open Idealize.ShloMosaic

theorem proj_congr {R K N : ℕ} {H H' : Mat R K} {W W' : Mat K N} (hH : H = H') (hW : W = W') : proj H W = proj H' W' := by
  subst hH hW; rfl

theorem layerTwo_congr {R K N : ℕ} {X X' A A' : Mat R K} {Ws Ws' Wn Wn' : Mat K N} {B B' : Mat 1 N}
    (hX : X = X') (hA : A = A') (hWs : Ws = Ws') (hWn : Wn = Wn') (hB : B = B') :
    layerTwo X A Ws Wn B = layerTwo X' A' Ws' Wn' B' := by
  subst hX hA hWs hWn hB; rfl

theorem layerAdd_congr {R K N : ℕ} {H H' : Mat R K} {A A' : Mat R N} {Ws Ws' : Mat K N} {B B' : Mat 1 N}
    (hH : H = H') (hA : A = A') (hWs : Ws = Ws') (hB : B = B') : layerAdd H A Ws B = layerAdd H' A' Ws' B' := by
  subst hH hA hWs hB; rfl

theorem edgeScore_congr {R C M U : ℕ} {Xs Xs' Xd Xd' : Mat R C} {Wa Wa' Wb Wb' : Mat C M} {B1 B1' : Mat 1 M} {W2 W2' : Mat M U}
    {B2 B2' : Mat 1 U} (hs : Xs = Xs') (hd : Xd = Xd') (hWa : Wa = Wa') (hWb : Wb = Wb') (hB1 : B1 = B1') (hW2 : W2 = W2')
    (hB2 : B2 = B2') : edgeScore Xs Xd Wa Wb B1 W2 B2 = edgeScore Xs' Xd' Wa' Wb' B1' W2' B2' := by
  subst hs hd hWa hWb hB1 hW2 hB2; rfl

end Cert.Spec

end
-- ==== Proof.SpecAt.lean ====
/-
  The stages of Spec at an index of one set of operands against an index of another: equal when the column is the same and
  every entry the stage reads agrees — the rows of the row-indexed operands, and the weights and the bias entry by entry. This
  is how a stage on a block of rows, whose weights are themselves read out of the weight arrays, is compared with the stage
  on the whole arrays. Each fact is stated first over coordinates and then over indices.
-/
import proofs.«112630_j80642305949836_2_alg».proof.Proof.Spec

noncomputable section

namespace Cert.Spec

open Idealize.ShloMosaic Idealize.ShloMosaic.ValueIdx
open scoped BigOperators

theorem dotAt_at {R R' K N : ℕ} (H : Mat R K) (H' : Mat R' K) (W W' : Mat K N) (p : Fin R) (p' : Fin R') (q : Fin N)
    (hH : ∀ k : Fin K, H (ix2 p k) = H' (ix2 p' k)) (hW : ∀ (k : Fin K) (q : Fin N), W (ix2 k q) = W' (ix2 k q)) :
    dotAt H W p q = dotAt H' W' p' q := by
  unfold dotAt
  exact Finset.sum_congr rfl fun k _ => by rw [hH k, hW k q]

theorem layerTwo_co {R R' K N : ℕ} (X A : Mat R K) (X' A' : Mat R' K) (Ws Wn Ws' Wn' : Mat K N) (B B' : Mat 1 N)
    (p : Fin R) (p' : Fin R') (q : Fin N)
    (hX : ∀ k : Fin K, X (ix2 p k) = X' (ix2 p' k)) (hA : ∀ k : Fin K, A (ix2 p k) = A' (ix2 p' k))
    (hWs : ∀ (k : Fin K) (q : Fin N), Ws (ix2 k q) = Ws' (ix2 k q)) (hWn : ∀ (k : Fin K) (q : Fin N), Wn (ix2 k q) = Wn' (ix2 k q))
    (hB : ∀ q : Fin N, B (ix2 (0 : Fin 1) q) = B' (ix2 (0 : Fin 1) q)) :
    layerTwo X A Ws Wn B (ix2 p q) = layerTwo X' A' Ws' Wn' B' (ix2 p' q) := by
  show max ((dotAt X Ws p q + dotAt A Wn p q) + B (ix2 (0 : Fin 1) q)) z32
    = max ((dotAt X' Ws' p' q + dotAt A' Wn' p' q) + B' (ix2 (0 : Fin 1) q)) z32
  rw [hB q, dotAt_at X X' Ws Ws' p p' q hX hWs, dotAt_at A A' Wn Wn' p p' q hA hWn]

theorem layerTwo_at {R R' K N : ℕ} (X A : Mat R K) (X' A' : Mat R' K) (Ws Wn Ws' Wn' : Mat K N) (B B' : Mat 1 N)
    (y : (⟨2, ![R, N]⟩ : Shape).Idx) (i : (⟨2, ![R', N]⟩ : Shape).Idx) (hq : (y 1).val = (i 1).val)
    (hX : ∀ k : Fin K, X (ix2 (y 0) k) = X' (ix2 (i 0) k)) (hA : ∀ k : Fin K, A (ix2 (y 0) k) = A' (ix2 (i 0) k))
    (hWs : ∀ (k : Fin K) (q : Fin N), Ws (ix2 k q) = Ws' (ix2 k q)) (hWn : ∀ (k : Fin K) (q : Fin N), Wn (ix2 k q) = Wn' (ix2 k q))
    (hB : ∀ q : Fin N, B (ix2 (0 : Fin 1) q) = B' (ix2 (0 : Fin 1) q)) :
    layerTwo X A Ws Wn B y = layerTwo X' A' Ws' Wn' B' i := by
  obtain ⟨p, q, rfl⟩ : ∃ (p : Fin R) (q : Fin N), y = ix2 p q := ⟨y 0, y 1, eq_ix2 y⟩
  obtain ⟨p', q', rfl⟩ : ∃ (p' : Fin R') (q' : Fin N), i = ix2 p' q' := ⟨i 0, i 1, eq_ix2 i⟩
  obtain rfl : q = q' := Fin.ext hq
  exact layerTwo_co X A X' A' Ws Wn Ws' Wn' B B' p p' q hX hA hWs hWn hB

theorem proj_at {R R' K N : ℕ} (H : Mat R K) (H' : Mat R' K) (W W' : Mat K N)
    (y : (⟨2, ![R, N]⟩ : Shape).Idx) (i : (⟨2, ![R', N]⟩ : Shape).Idx) (hq : (y 1).val = (i 1).val)
    (hH : ∀ k : Fin K, H (ix2 (y 0) k) = H' (ix2 (i 0) k)) (hW : ∀ (k : Fin K) (q : Fin N), W (ix2 k q) = W' (ix2 k q)) :
    proj H W y = proj H' W' i := by
  obtain ⟨p, q, rfl⟩ : ∃ (p : Fin R) (q : Fin N), y = ix2 p q := ⟨y 0, y 1, eq_ix2 y⟩
  obtain ⟨p', q', rfl⟩ : ∃ (p' : Fin R') (q' : Fin N), i = ix2 p' q' := ⟨i 0, i 1, eq_ix2 i⟩
  obtain rfl : q = q' := Fin.ext hq
  exact dotAt_at H H' W W' p p' q hH hW

theorem layerAdd_co {R R' K N : ℕ} (H : Mat R K) (H' : Mat R' K) (A : Mat R N) (A' : Mat R' N) (Ws Ws' : Mat K N) (B B' : Mat 1 N)
    (p : Fin R) (p' : Fin R') (q : Fin N)
    (hH : ∀ k : Fin K, H (ix2 p k) = H' (ix2 p' k)) (hA : A (ix2 p q) = A' (ix2 p' q))
    (hWs : ∀ (k : Fin K) (q : Fin N), Ws (ix2 k q) = Ws' (ix2 k q))
    (hB : ∀ q : Fin N, B (ix2 (0 : Fin 1) q) = B' (ix2 (0 : Fin 1) q)) :
    layerAdd H A Ws B (ix2 p q) = layerAdd H' A' Ws' B' (ix2 p' q) := by
  show max ((dotAt H Ws p q + A (ix2 p q)) + B (ix2 (0 : Fin 1) q)) z32 = max ((dotAt H' Ws' p' q + A' (ix2 p' q)) + B' (ix2 (0 : Fin 1) q)) z32
  rw [hA, hB q, dotAt_at H H' Ws Ws' p p' q hH hWs]

theorem layerAdd_at {R R' K N : ℕ} (H : Mat R K) (H' : Mat R' K) (A : Mat R N) (A' : Mat R' N) (Ws Ws' : Mat K N) (B B' : Mat 1 N)
    (y : (⟨2, ![R, N]⟩ : Shape).Idx) (i : (⟨2, ![R', N]⟩ : Shape).Idx) (hq : (y 1).val = (i 1).val)
    (hH : ∀ k : Fin K, H (ix2 (y 0) k) = H' (ix2 (i 0) k)) (hA : A y = A' i)
    (hWs : ∀ (k : Fin K) (q : Fin N), Ws (ix2 k q) = Ws' (ix2 k q))
    (hB : ∀ q : Fin N, B (ix2 (0 : Fin 1) q) = B' (ix2 (0 : Fin 1) q)) :
    layerAdd H A Ws B y = layerAdd H' A' Ws' B' i := by
  obtain ⟨p, q, rfl⟩ : ∃ (p : Fin R) (q : Fin N), y = ix2 p q := ⟨y 0, y 1, eq_ix2 y⟩
  obtain ⟨p', q', rfl⟩ : ∃ (p' : Fin R') (q' : Fin N), i = ix2 p' q' := ⟨i 0, i 1, eq_ix2 i⟩
  obtain rfl : q = q' := Fin.ext hq
  exact layerAdd_co H H' A A' Ws Ws' B B' p p' q hH hA hWs hB

theorem hiddenAt_at {R R' C M : ℕ} (Xs Xd : Mat R C) (Xs' Xd' : Mat R' C) (Wa Wb Wa' Wb' : Mat C M) (B1 B1' : Mat 1 M)
    (e : Fin R) (e' : Fin R') (j : Fin M)
    (hs : ∀ k : Fin C, Xs (ix2 e k) = Xs' (ix2 e' k)) (hd : ∀ k : Fin C, Xd (ix2 e k) = Xd' (ix2 e' k))
    (hWa : ∀ (k : Fin C) (j : Fin M), Wa (ix2 k j) = Wa' (ix2 k j)) (hWb : ∀ (k : Fin C) (j : Fin M), Wb (ix2 k j) = Wb' (ix2 k j))
    (hB1 : ∀ j : Fin M, B1 (ix2 (0 : Fin 1) j) = B1' (ix2 (0 : Fin 1) j)) :
    hiddenAt Xs Xd Wa Wb B1 e j = hiddenAt Xs' Xd' Wa' Wb' B1' e' j := by
  unfold hiddenAt
  rw [hB1 j, dotAt_at Xs Xs' Wa Wa' e e' j hs hWa, dotAt_at Xd Xd' Wb Wb' e e' j hd hWb]

theorem edgeScore_co {R R' C M U : ℕ} (Xs Xd : Mat R C) (Xs' Xd' : Mat R' C) (Wa Wb Wa' Wb' : Mat C M) (B1 B1' : Mat 1 M)
    (W2 W2' : Mat M U) (B2 B2' : Mat 1 U) (e : Fin R) (e' : Fin R') (u : Fin U)
    (hs : ∀ k : Fin C, Xs (ix2 e k) = Xs' (ix2 e' k)) (hd : ∀ k : Fin C, Xd (ix2 e k) = Xd' (ix2 e' k))
    (hWa : ∀ (k : Fin C) (j : Fin M), Wa (ix2 k j) = Wa' (ix2 k j)) (hWb : ∀ (k : Fin C) (j : Fin M), Wb (ix2 k j) = Wb' (ix2 k j))
    (hB1 : ∀ j : Fin M, B1 (ix2 (0 : Fin 1) j) = B1' (ix2 (0 : Fin 1) j))
    (hW2 : ∀ (j : Fin M) (u : Fin U), W2 (ix2 j u) = W2' (ix2 j u)) (hB2 : ∀ u : Fin U, B2 (ix2 (0 : Fin 1) u) = B2' (ix2 (0 : Fin 1) u)) :
    edgeScore Xs Xd Wa Wb B1 W2 B2 (ix2 e u) = edgeScore Xs' Xd' Wa' Wb' B1' W2' B2' (ix2 e' u) := by
  show Ideal.logistic ((∑ j : Fin M, hiddenAt Xs Xd Wa Wb B1 e j * W2 (ix2 j u)) + B2 (ix2 (0 : Fin 1) u))
    = Ideal.logistic ((∑ j : Fin M, hiddenAt Xs' Xd' Wa' Wb' B1' e' j * W2' (ix2 j u)) + B2' (ix2 (0 : Fin 1) u))
  rw [hB2 u]
  refine congrArg Ideal.logistic (congrArg (· + B2' (ix2 (0 : Fin 1) u)) (Finset.sum_congr rfl fun j _ => ?_))
  rw [hW2 j u, hiddenAt_at Xs Xd Xs' Xd' Wa Wb Wa' Wb' B1 B1' e e' j hs hd hWa hWb hB1]

theorem edgeScore_at {R R' C M U : ℕ} (Xs Xd : Mat R C) (Xs' Xd' : Mat R' C) (Wa Wb Wa' Wb' : Mat C M) (B1 B1' : Mat 1 M)
    (W2 W2' : Mat M U) (B2 B2' : Mat 1 U)
    (y : (⟨2, ![R, U]⟩ : Shape).Idx) (i : (⟨2, ![R', U]⟩ : Shape).Idx) (hq : (y 1).val = (i 1).val)
    (hs : ∀ k : Fin C, Xs (ix2 (y 0) k) = Xs' (ix2 (i 0) k)) (hd : ∀ k : Fin C, Xd (ix2 (y 0) k) = Xd' (ix2 (i 0) k))
    (hWa : ∀ (k : Fin C) (j : Fin M), Wa (ix2 k j) = Wa' (ix2 k j)) (hWb : ∀ (k : Fin C) (j : Fin M), Wb (ix2 k j) = Wb' (ix2 k j))
    (hB1 : ∀ j : Fin M, B1 (ix2 (0 : Fin 1) j) = B1' (ix2 (0 : Fin 1) j))
    (hW2 : ∀ (j : Fin M) (u : Fin U), W2 (ix2 j u) = W2' (ix2 j u)) (hB2 : ∀ u : Fin U, B2 (ix2 (0 : Fin 1) u) = B2' (ix2 (0 : Fin 1) u)) :
    edgeScore Xs Xd Wa Wb B1 W2 B2 y = edgeScore Xs' Xd' Wa' Wb' B1' W2' B2' i := by
  obtain ⟨e, u, rfl⟩ : ∃ (e : Fin R) (u : Fin U), y = ix2 e u := ⟨y 0, y 1, eq_ix2 y⟩
  obtain ⟨e', u', rfl⟩ : ∃ (e' : Fin R') (u' : Fin U), i = ix2 e' u' := ⟨i 0, i 1, eq_ix2 i⟩
  obtain rfl : u = u' := Fin.ext hq
  exact edgeScore_co Xs Xd Xs' Xd' Wa Wb Wa' Wb' B1 B1' W2 W2' B2 B2' e e' u hs hd hWa hWb hB1 hW2 hB2

end Cert.Spec

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibPlainDot.lean ====
/-
  GENERAL LEMMAS: the product of an [R, K] matrix with a [K, N] matrix under the plain dimension record (axis 1 of the left
  operand contracted with axis 0 of the right, no batch axes), read at (p, q) on extended reals as the sum over k of
  l(p, k) * r(k, q) — for the matrix unit's product into a zero accumulator and for the host's dot_general. Any extents; a
  printed record with these six lists is this record. It imports LibMatmulRows.lean of the same directory.
-/
import Idealize.ShloMosaic.PureOps.Ideal
import Idealize.ShloMosaic.PureOps.Ideal.Laws
import Idealize.ShloMosaic.Lib.ValueIdx
import proofs.«112630_j80642305949836_2_alg».proof.Proof.LibMatmulRows

noncomputable section

namespace Cert.LibPlainDot

open Idealize.ShloMosaic Idealize.ShloMosaic.ValueIdx
open scoped BigOperators

variable {R K N : ℕ}

theorem lhs0 (i : (⟨2, ![R, N]⟩ : Shape).Idx) (s : (DotDims.plain R K N).contr.Idx) :
    ((DotDims.plain R K N).lhsIdx i s 0).val = (i 0).val := by
  unfold DotDims.lhsIdx
  rw [dif_neg (show ¬(0 : Fin 2) ∈ (DotDims.plain R K N).lhsBatch from List.not_mem_nil),
    dif_pos (show (0 : Fin 2) ∈ (DotDims.plain R K N).lhsNonContracting from List.mem_singleton.mpr rfl)]
  rfl

theorem lhs1 (i : (⟨2, ![R, N]⟩ : Shape).Idx) (s : (DotDims.plain R K N).contr.Idx) :
    ((DotDims.plain R K N).lhsIdx i s 1).val = (s ⟨0, Nat.one_pos⟩).val :=
  (DotDims.plain R K N).lhsIdx_val_of_single rfl i s

theorem rhs0 (i : (⟨2, ![R, N]⟩ : Shape).Idx) (s : (DotDims.plain R K N).contr.Idx) :
    ((DotDims.plain R K N).rhsIdx i s 0).val = (s ⟨0, Nat.one_pos⟩).val :=
  (DotDims.plain R K N).rhsIdx_val_of_single rfl i s

theorem rhs1 (i : (⟨2, ![R, N]⟩ : Shape).Idx) (s : (DotDims.plain R K N).contr.Idx) :
    ((DotDims.plain R K N).rhsIdx i s 1).val = (i 1).val := by
  unfold DotDims.rhsIdx
  rw [dif_neg (show ¬(1 : Fin 2) ∈ (DotDims.plain R K N).rhsBatch from List.not_mem_nil),
    dif_pos (show (1 : Fin 2) ∈ (DotDims.plain R K N).rhsNonContracting from List.mem_singleton.mpr rfl)]
  rfl

/-- The matrix unit's product into a zero accumulator, read at (p, q). -/
theorem matmul_plain {φ₁ φ₂ : FTy} (l : FVec Ideal ⟨2, ![R, K]⟩ φ₁) (r : FVec Ideal ⟨2, ![K, N]⟩ φ₂) (p : Fin R) (q : Fin N) :
    matmul (DotDims.plain R K N) none l r (constant (F := Ideal) ⟨2, ![R, N]⟩ .f32 0x00000000#32) (ix2 p q)
      = ∑ k : Fin K, l (ix2 p k) * r (ix2 k q) :=
  Cert.LibMatmulRows.matmul_rows (DotDims.plain R K N) rfl rfl lhs0 lhs1 rhs0 rhs1 l r p q

/-- The host's dot_general, read at (p, q). -/
theorem hostdot_plain (l : FVec Ideal ⟨2, ![R, K]⟩ .f32) (r : FVec Ideal ⟨2, ![K, N]⟩ .f32) (p : Fin R) (q : Fin N) :
    Host.dotGeneral (DotDims.plain R K N) none l r (ix2 p q) = ∑ k : Fin K, l (ix2 p k) * r (ix2 k q) :=
  Cert.LibMatmulRows.hostdot_rows (DotDims.plain R K N) rfl rfl lhs0 lhs1 rhs0 rhs1 l r p q

end Cert.LibPlainDot

end
-- ==== Proof.KBody.lean ====
/-
  What each kernel body leaves in its output block, as a function of the blocks it loads, on extended reals.

  Region 0 (the first graph layer) loads a block of 5000 rows of node features x and of aggregated features a, the two weight
  matrices, the projection matrix and the bias as one row, and stores  relu((x Ws + a Wn) + b)  and that block's product with
  the projection matrix. Region 1 (the second layer) loads 5000 rows of hidden features h and of the already projected
  neighbour term a, and stores  relu((h Ws + a) + b). Region 2 (the edge scorer) loads 8000 rows of source and destination
  embeddings and stores  logistic(relu((xs Wa + xd Wb) + b1) W2 + b2). A change of float format is the identity on extended
  reals, a cast of a block to its own shape changes nothing, and a product into a zero accumulator is the plain sum over the
  contracted axis; so each stored block is the corresponding stage of Spec applied to the loaded blocks.
-/
import proofs.«112630_j80642305949836_2_alg».proof.Proof.Gen.KernelIdeal.Frame
import Idealize.ShloMosaic.Lib.Pipeline.Value
import Idealize.ShloMosaic.Lib.ValueLayout
import Idealize.ShloMosaic.Lib.ValueIdx
import proofs.«112630_j80642305949836_2_alg».proof.Proof.Spec
import proofs.«112630_j80642305949836_2_alg».proof.Proof.LibPlainDot

set_option maxRecDepth 16384

noncomputable section

namespace Cert.KernelIdeal.KBody

open Cert.KernelIdeal Cert.KernelIdeal.Gen Idealize.ShloMosaic Idealize.ShloMosaic.ValueIdx Cert.Spec
open scoped BigOperators

theorem hz : (![0, 0] : Fin 2 → Nat) = fun _ => 0 := funext fun a => by fin_cases a <;> rfl

/-! ## The printed dimension records are the plain record -/

theorem dot_5000_128_128 : dot_S5000x128_S128x128_S5000x128_1_0_0_1_n_n = DotDims.plain 5000 128 128 := rfl
theorem dot_5000_128_64 : dot_S5000x128_S128x64_S5000x64_1_0_0_1_n_n = DotDims.plain 5000 128 64 := rfl
theorem dot_8000_64_128 : dot_S8000x64_S64x128_S8000x128_1_0_0_1_n_n = DotDims.plain 8000 64 128 := rfl
theorem dot_8000_128_1 : dot_S8000x128_S128x1_S8000x1_1_0_0_1_n_n = DotDims.plain 8000 128 1 := rfl

/-! ## Region 0 -/

/-- The first stored value of region 0 at (p, q): the rectified dense layer of the loaded blocks. -/
theorem pay0_1_at (x0 x1 : Vec Ideal S5000x128 .f32) (x2 x3 : Vec Ideal S128x128 .f32) (x5 : Vec Ideal S1x128 .f32)
    (p : Fin 5000) (q : Fin 128) :
    k0_pay1 (F := Ideal) x0 x1 x2 x3 x5 (ix2 p q) = layerTwo x0 x1 x2 x3 x5 (ix2 p q) := by
  unfold k0_pay1
  simp only [shapeCast_self]
  rw [dot_5000_128_128]
  show max ((_ + _) + _) _ = max ((dotAt x0 x2 p q + dotAt x1 x3 p q) + x5 (ix2 (0 : Fin 1) q)) z32
  rw [Cert.LibPlainDot.matmul_plain, Cert.LibPlainDot.matmul_plain, broadcastTo_1b_ab_apply]
  rfl

theorem pay0_1_eq (x0 x1 : Vec Ideal S5000x128 .f32) (x2 x3 : Vec Ideal S128x128 .f32) (x5 : Vec Ideal S1x128 .f32) :
    k0_pay1 (F := Ideal) x0 x1 x2 x3 x5 = layerTwo x0 x1 x2 x3 x5 := by
  funext i
  obtain ⟨p, q, rfl⟩ : ∃ (p : Fin 5000) (q : Fin 128), i = ix2 p q := ⟨i 0, i 1, eq_ix2 i⟩
  exact pay0_1_at x0 x1 x2 x3 x5 p q

/-- The second stored value of region 0: the first one's product with the projection matrix. -/
theorem pay0_2_eq (x0 x1 : Vec Ideal S5000x128 .f32) (x2 x3 : Vec Ideal S128x128 .f32) (x5 : Vec Ideal S1x128 .f32)
    (x4 : Vec Ideal S128x64 .f32) :
    k0_pay2 (F := Ideal) x0 x1 x2 x3 x5 x4 = proj (layerTwo x0 x1 x2 x3 x5) x4 := by
  funext i
  obtain ⟨p, q, rfl⟩ : ∃ (p : Fin 5000) (q : Fin 64), i = ix2 p q := ⟨i 0, i 1, eq_ix2 i⟩
  unfold k0_pay2
  rw [dot_5000_128_64, Cert.LibPlainDot.matmul_plain, pay0_1_eq]
  rfl

/-! ## Region 1 -/

/-- The stored value of region 1: the rectified dense layer whose neighbour term is already projected. The payload takes
    its loads in the body's order: hidden features, weights, neighbour term, bias. -/
theorem pay1_1_eq (v0 : Vec Ideal S5000x128 .f32) (v3 : Vec Ideal S128x64 .f32) (v6 : Vec Ideal S5000x64 .f32) (v9 : Vec Ideal S1x64 .f32) :
    k1_pay1 (F := Ideal) v0 v3 v6 v9 = layerAdd v0 v6 v3 v9 := by
  funext i
  obtain ⟨p, q, rfl⟩ : ∃ (p : Fin 5000) (q : Fin 64), i = ix2 p q := ⟨i 0, i 1, eq_ix2 i⟩
  unfold k1_pay1
  simp only [shapeCast_self]
  rw [dot_5000_128_64]
  show max ((_ + _) + _) _ = max ((dotAt v0 v3 p q + v6 (ix2 p q)) + v9 (ix2 (0 : Fin 1) q)) z32
  rw [Cert.LibPlainDot.matmul_plain, broadcastTo_1b_ab_apply]
  rfl

/-! ## Region 2 -/

/-- The stored value of region 2: the edge scorer of the loaded blocks. -/
theorem pay2_1_eq (v0 v2 : Vec Ideal S8000x64 .bf16) (v4 v7 : Vec Ideal S64x128 .f32) (v13 : Vec Ideal S1x128 .f32)
    (v20 : Vec Ideal S128x1 .f32) (v23 : Vec Ideal S1x1 .f32) :
    k2_pay1 (F := Ideal) v0 v2 v4 v7 v13 v20 v23 = edgeScore v0 v2 v4 v7 v13 v20 v23 := by
  funext i
  obtain ⟨e, u, rfl⟩ : ∃ (e : Fin 8000) (u : Fin 1), i = ix2 e u := ⟨i 0, i 1, eq_ix2 i⟩
  unfold k2_pay1
  simp only [shapeCast_self]
  rw [dot_8000_128_1, dot_8000_64_128]
  show Ideal.logistic (_ + _) = Ideal.logistic ((∑ j : Fin 128, hiddenAt v0 v2 v4 v7 v13 e j * v20 (ix2 j u)) + v23 (ix2 (0 : Fin 1) u))
  rw [Cert.LibPlainDot.matmul_plain, broadcastTo_1b_ab_apply]
  refine congrArg Ideal.logistic (congrArg (· + v23 (ix2 (0 : Fin 1) u)) (Finset.sum_congr rfl fun j _ => ?_))
  show max ((_ + _) + _) _ * _ = max ((dotAt v0 v4 e j + dotAt v2 v7 e j) + v13 (ix2 (0 : Fin 1) j)) z32 * v20 (ix2 j u)
  rw [Cert.LibPlainDot.matmul_plain, Cert.LibPlainDot.matmul_plain, broadcastTo_1b_ab_apply]
  rfl

/-! ## The blocks the bodies leave -/

theorem out0_6_eq (x0 x1 : Vec Ideal S5000x128 .f32) (x2 x3 : Vec Ideal S128x128 .f32) (x4 : Vec Ideal S128x64 .f32) (x5 : Vec Ideal S1x128 .f32) :
    out0_6 (F := Ideal) x0 x1 x2 x3 x4 x5 = layerTwo x0 x1 x2 x3 x5 := by
  unfold out0_6
  rw [View.canon_unit_zero hz]
  simp only [View.ld_unit_zero (S := S5000x128) hz, View.ld_unit_zero (S := S128x128) hz, View.ld_unit_zero (S := S1x128) hz]
  exact pay0_1_eq x0 x1 x2 x3 x5

theorem out0_7_eq (x0 x1 : Vec Ideal S5000x128 .f32) (x2 x3 : Vec Ideal S128x128 .f32) (x4 : Vec Ideal S128x64 .f32) (x5 : Vec Ideal S1x128 .f32) :
    out0_7 (F := Ideal) x0 x1 x2 x3 x4 x5 = proj (layerTwo x0 x1 x2 x3 x5) x4 := by
  unfold out0_7
  rw [View.canon_unit_zero hz]
  simp only [View.ld_unit_zero (S := S5000x128) hz, View.ld_unit_zero (S := S128x128) hz, View.ld_unit_zero (S := S1x128) hz,
    View.ld_unit_zero (S := S128x64) hz]
  exact pay0_2_eq x0 x1 x2 x3 x5 x4

theorem out1_4_eq (x0 : Vec Ideal S5000x128 .f32) (x1 : Vec Ideal S5000x64 .f32) (x2 : Vec Ideal S128x64 .f32) (x3 : Vec Ideal S1x64 .f32) :
    out1_4 (F := Ideal) x0 x1 x2 x3 = layerAdd x0 x1 x2 x3 := by
  unfold out1_4
  rw [View.canon_unit_zero hz]
  simp only [View.ld_unit_zero (S := S5000x128) hz, View.ld_unit_zero (S := S128x64) hz, View.ld_unit_zero (S := S5000x64) hz,
    View.ld_unit_zero (S := S1x64) hz]
  exact pay1_1_eq x0 x2 x1 x3

theorem out2_7_eq (x0 x1 : Vec Ideal S8000x64 .bf16) (x2 x3 : Vec Ideal S64x128 .f32) (x4 : Vec Ideal S1x128 .f32)
    (x5 : Vec Ideal S128x1 .f32) (x6 : Vec Ideal S1x1 .f32) :
    out2_7 (F := Ideal) x0 x1 x2 x3 x4 x5 x6 = edgeScore x0 x1 x2 x3 x4 x5 x6 := by
  unfold out2_7
  rw [View.canon_unit_zero hz]
  simp only [View.ld_unit_zero (S := S8000x64) hz, View.ld_unit_zero (S := S64x128) hz, View.ld_unit_zero (S := S1x128) hz,
    View.ld_unit_zero (S := S128x1) hz, View.ld_unit_zero (S := S1x1) hz]
  exact pay2_1_eq x0 x1 x2 x3 x4 x5 x6

end Cert.KernelIdeal.KBody

end
-- ==== Proof.KBlocks.lean ====
/-
  From blocks to whole arrays: what each region leaves in its output arrays, as one function of the arrays it reads.

  Every region steps through the rows of its row-indexed operands one block at a time (5000 rows in the two graph layers, 8000
  in the edge scorer); grid point t reads rows  size * t ... size * t + size - 1  of each of them, reads the weight and bias
  arrays whole, and writes back the same rows of its output arrays. The stages of Spec read, at row p, only row p of their
  row-indexed operands; so what point t writes back is block t of the stage applied to the whole arrays, the blocks of the
  points cover every row, and each output array ends as that stage of the arrays the region finds on entry.
-/
import proofs.«112630_j80642305949836_2_alg».proof.Proof.Gen.KernelIdeal.Frame
import Idealize.ShloMosaic.Lib.Pipeline.Value
import Idealize.ShloMosaic.Lib.ValueIdx
import proofs.«112630_j80642305949836_2_alg».proof.Proof.Spec
import proofs.«112630_j80642305949836_2_alg».proof.Proof.SpecAt
import proofs.«112630_j80642305949836_2_alg».proof.Proof.KBody

set_option maxRecDepth 16384

noncomputable section

namespace Cert.KernelIdeal.KBlocks

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

/-! ## Region 0 -/

/-- The printed index maps over the 20 grid points: the row-indexed windows sit at block row t, the others at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem blk0_0 (c : Dev nD) (t : Fin cfg0.N) (p : Fin 5000) (k : Fin 128) :
    iblk0 V c 0 t (ix2 p k) = V c main_arg0 (ix2 (⟨5000 * t.val + p.val, by have ht : t.val < 20 := t.isLt; have hp : p.val < 5000 := p.isLt; show _ < 100000; omega⟩ : Fin 100000) k) := by
  obtain ⟨e0, e1, _, _, _, _, _, _, _, _, _, _, _, _, _, _⟩ := idx_facts0 t
  show V c main_arg0 (((cfg0.win 0).blk t).view.emb (ix2 p k)) = _
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

theorem blk0_1 (c : Dev nD) (t : Fin cfg0.N) (p : Fin 5000) (k : Fin 128) :
    iblk0 V c 1 t (ix2 p k) = V c main_v20 (ix2 (⟨5000 * t.val + p.val, by have ht : t.val < 20 := t.isLt; have hp : p.val < 5000 := p.isLt; show _ < 100000; omega⟩ : Fin 100000) k) := by
  obtain ⟨_, _, e0, e1, _, _, _, _, _, _, _, _, _, _, _, _⟩ := idx_facts0 t
  show V c main_v20 (((cfg0.win 1).blk t).view.emb (ix2 p k)) = _
  refine congrArg _ (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

theorem blk0_2 (c : Dev nD) (t : Fin cfg0.N) (p : Fin 128) (k : Fin 128) :
    iblk0 V c 2 t (ix2 p k) = V c main_arg5 (ix2 p k) := by
  obtain ⟨_, _, _, _, e0, e1, _, _, _, _, _, _, _, _, _, _⟩ := idx_facts0 t
  show V c main_arg5 (((cfg0.win 2).blk t).view.emb (ix2 p k)) = _
  refine congrArg _ (funext fun a => Fin.ext ?_)
  match a with
  | ⟨0, _⟩ => show win0_2.index t (0 : Fin 2) * 128 + 1 * p.val = p.val; rw [e0]; omega
  | ⟨1, _⟩ => show win0_2.index t (1 : Fin 2) * 128 + 1 * k.val = k.val; rw [e1]; omega

theorem blk0_3 (c : Dev nD) (t : Fin cfg0.N) (p : Fin 128) (k : Fin 128) :
    iblk0 V c 3 t (ix2 p k) = V c main_arg6 (ix2 p k) := by
  obtain ⟨_, _, _, _, _, _, e0, e1, _, _, _, _, _, _, _, _⟩ := idx_facts0 t
  show V c main_arg6 (((cfg0.win 3).blk t).view.emb (ix2 p k)) = _
  refine congrArg _ (funext fun a => Fin.ext ?_)
  match a with
  | ⟨0, _⟩ => show win0_3.index t (0 : Fin 2) * 128 + 1 * p.val = p.val; rw [e0]; omega
  | ⟨1, _⟩ => show win0_3.index t (1 : Fin 2) * 128 + 1 * k.val = k.val; rw [e1]; omega

theorem blk0_4 (c : Dev nD) (t : Fin cfg0.N) (p : Fin 128) (k : Fin 64) :
    iblk0 V c 4 t (ix2 p k) = V c main_arg9 (ix2 p k) := by
  obtain ⟨_, _, _, _, _, _, _, _, e0, e1, _, _, _, _, _, _⟩ := idx_facts0 t
  show V c main_arg9 (((cfg0.win 4).blk t).view.emb (ix2 p k)) = _
  refine congrArg _ (funext fun a => Fin.ext ?_)
  match a with
  | ⟨0, _⟩ => show win0_4.index t (0 : Fin 2) * 128 + 1 * p.val = p.val; rw [e0]; omega
  | ⟨1, _⟩ => show win0_4.index t (1 : Fin 2) * 64 + 1 * k.val = k.val; rw [e1]; omega

theorem blk0_5 (c : Dev nD) (t : Fin cfg0.N) (p : Fin 1) (k : Fin 128) :
    iblk0 V c 5 t (ix2 p k) = V c main_v21 (ix2 p k) := by
  obtain ⟨_, _, _, _, _, _, _, _, _, _, e0, e1, _, _, _, _⟩ := idx_facts0 t
  show V c main_v21 (((cfg0.win 5).blk t).view.emb (ix2 p k)) = _
  refine congrArg _ (funext fun a => Fin.ext ?_)
  match a with
  | ⟨0, _⟩ => show win0_5.index t (0 : Fin 2) * 1 + 1 * p.val = p.val; rw [e0]; omega
  | ⟨1, _⟩ => show win0_5.index t (1 : Fin 2) * 128 + 1 * k.val = k.val; rw [e1]; omega

/-- Where block t of output window 6 sits: rows 5000 t ... 5000 t + 4999, all 128 columns. -/
theorem emb0_6 (t : Fin cfg0.N) (j : ((cfg0.win 6).xblock (cfg0.grid.coords t)).Idx) :
    ((((cfg0.win 6).blk t).view.emb j) 0).val = 5000 * t.val + (j 0).val ∧ ((((cfg0.win 6).blk t).view.emb j) 1).val = (j 1).val := by
  obtain ⟨_, _, _, _, _, _, _, _, _, _, _, _, e0, e1, _, _⟩ := idx_facts0 t
  constructor
  · show win0_6.index t (0 : Fin 2) * 5000 + 1 * (j 0).val = _; rw [e0]; omega
  · show win0_6.index t (1 : Fin 2) * 128 + 1 * (j 1).val = _; rw [e1]; omega

/-- What point t writes back to the first output array is block t of the first layer of the whole arrays. -/
theorem flushed0_6_eq (c : Dev nD) (t : Fin cfg0.N) :
    (dat0 V c).flushed 6 t = ((cfg0.win 6).blk t).view.read (Elt Ideal)
      (layerTwo (V c main_arg0) (V c main_v20) (V c main_arg5) (V c main_arg6) (V c main_v21)) := by
  show (cfg0.win 6).cut (grid0.coords t) ((dat0 V c).after 6 t) = _
  rw [after0_6, KBody.out0_6_eq (iblk0 V c 0 t) (iblk0 V c 1 t) (iblk0 V c 2 t) (iblk0 V c 3 t) (iblk0 V c 4 t) (iblk0 V c 5 t)]
  funext j
  obtain ⟨h0, h1⟩ := emb0_6 t j
  show layerTwo (iblk0 V c 0 t) (iblk0 V c 1 t) (iblk0 V c 2 t) (iblk0 V c 3 t) (iblk0 V c 5 t) j
    = layerTwo (V c main_arg0) (V c main_v20) (V c main_arg5) (V c main_arg6) (V c main_v21) (((cfg0.win 6).blk t).view.emb j)
  refine layerTwo_at _ _ _ _ _ _ _ _ _ _ j _ h1.symm (fun k => ?_) (fun k => ?_) (fun k q => blk0_2 V c t k q) (fun k q => blk0_3 V c t k q)
    (fun q => blk0_5 V c t 0 q)
  · exact (blk0_0 V c t (j 0) k).trans (congrArg _ (congrArg (fun r => ix2 r k) (Fin.ext h0.symm)))
  · exact (blk0_1 V c t (j 0) k).trans (congrArg _ (congrArg (fun r => ix2 r k) (Fin.ext h0.symm)))

/-- An index of the array is in block t iff each coordinate is in the block's range on its axis. -/
theorem mem_blk0_6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v22_0).slice (win0_6.rect t)).set ↔ _
  rw [View.set_slice_whole, Rect.mem_set_unit]
  exact Iff.rfl

/-- Every row is in the block of the point  row / 5000. -/
theorem covered0_6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 5000 < cfg0.N := by show _ < 20; omega
  refine ⟨⟨(i 0).val / 5000, ht⟩, flush0_6 _, ?_⟩
  rw [mem_blk0_6]
  obtain ⟨_, _, _, _, _, _, _, _, _, _, _, _, e0, e1, _, _⟩ := idx_facts0 ⟨(i 0).val / 5000, ht⟩
  intro a
  match a with
  | ⟨0, _⟩ => show win0_6.index _ (0 : Fin 2) * 5000 ≤ (i 0).val ∧ (i 0).val < win0_6.index _ (0 : Fin 2) * 5000 + 5000; rw [e0]; show (i 0).val / 5000 * 5000 ≤ _ ∧ _ < (i 0).val / 5000 * 5000 + 5000; omega
  | ⟨1, _⟩ => show win0_6.index _ (1 : Fin 2) * 128 ≤ (i 1).val ∧ (i 1).val < win0_6.index _ (1 : Fin 2) * 128 + 128; rw [e1]; omega

/-- The first output array of region 0 ends as the first layer of the arrays the region finds. -/
theorem final0_6 (c : Dev nD) : (dat0 V c).arrAt 6 cfg0.N
    = layerTwo (V c main_arg0) (V c main_v20) (V c main_arg5) (V c main_arg6) (V c main_v21) :=
  (dat0 V c).arrAt_eq_of_cover 6 _ (fun t _ => flushed0_6_eq V c t) covered0_6

/-- Where block t of output window 7 sits: rows 5000 t ... 5000 t + 4999, all 64 columns. -/
theorem emb0_7 (t : Fin cfg0.N) (j : ((cfg0.win 7).xblock (cfg0.grid.coords t)).Idx) :
    ((((cfg0.win 7).blk t).view.emb j) 0).val = 5000 * t.val + (j 0).val ∧ ((((cfg0.win 7).blk t).view.emb j) 1).val = (j 1).val := by
  obtain ⟨_, _, _, _, _, _, _, _, _, _, _, _, _, _, e0, e1⟩ := idx_facts0 t
  constructor
  · show win0_7.index t (0 : Fin 2) * 5000 + 1 * (j 0).val = _; rw [e0]; omega
  · show win0_7.index t (1 : Fin 2) * 64 + 1 * (j 1).val = _; rw [e1]; omega

/-- What point t writes back to the second output array is block t of the projected first layer of the whole arrays. -/
theorem flushed0_7_eq (c : Dev nD) (t : Fin cfg0.N) :
    (dat0 V c).flushed 7 t = ((cfg0.win 7).blk t).view.read (Elt Ideal)
      (proj (layerTwo (V c main_arg0) (V c main_v20) (V c main_arg5) (V c main_arg6) (V c main_v21)) (V c main_arg9)) := by
  show (cfg0.win 7).cut (grid0.coords t) ((dat0 V c).after 7 t) = _
  rw [after0_7, KBody.out0_7_eq (iblk0 V c 0 t) (iblk0 V c 1 t) (iblk0 V c 2 t) (iblk0 V c 3 t) (iblk0 V c 4 t) (iblk0 V c 5 t)]
  funext j
  obtain ⟨h0, h1⟩ := emb0_7 t j
  show proj (layerTwo (iblk0 V c 0 t) (iblk0 V c 1 t) (iblk0 V c 2 t) (iblk0 V c 3 t) (iblk0 V c 5 t)) (iblk0 V c 4 t) j
    = proj (layerTwo (V c main_arg0) (V c main_v20) (V c main_arg5) (V c main_arg6) (V c main_v21)) (V c main_arg9) (((cfg0.win 7).blk t).view.emb j)
  refine proj_at _ _ _ _ j _ h1.symm (fun k => ?_) (fun k q => blk0_4 V c t k q)
  refine layerTwo_co _ _ _ _ _ _ _ _ _ _ (j 0) _ k (fun k' => ?_) (fun k' => ?_) (fun k' q => blk0_2 V c t k' q) (fun k' q => blk0_3 V c t k' q)
    (fun q => blk0_5 V c t 0 q)
  · exact (blk0_0 V c t (j 0) k').trans (congrArg _ (congrArg (fun r => ix2 r k') (Fin.ext h0.symm)))
  · exact (blk0_1 V c t (j 0) k').trans (congrArg _ (congrArg (fun r => ix2 r k') (Fin.ext h0.symm)))

/-- An index of the array is in block t iff each coordinate is in the block's range on its axis. -/
theorem mem_blk0_7 (t : Fin cfg0.N) (i : S100000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v22_1).slice (win0_7.rect t)).set ↔ _
  rw [View.set_slice_whole, Rect.mem_set_unit]
  exact Iff.rfl

/-- Every row is in the block of the point  row / 5000. -/
theorem covered0_7 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have ht : (i 0).val / 5000 < cfg0.N := by show _ < 20; omega
  refine ⟨⟨(i 0).val / 5000, ht⟩, flush0_7 _, ?_⟩
  rw [mem_blk0_7]
  obtain ⟨_, _, _, _, _, _, _, _, _, _, _, _, _, _, e0, e1⟩ := idx_facts0 ⟨(i 0).val / 5000, ht⟩
  intro a
  match a with
  | ⟨0, _⟩ => show win0_7.index _ (0 : Fin 2) * 5000 ≤ (i 0).val ∧ (i 0).val < win0_7.index _ (0 : Fin 2) * 5000 + 5000; rw [e0]; show (i 0).val / 5000 * 5000 ≤ _ ∧ _ < (i 0).val / 5000 * 5000 + 5000; omega
  | ⟨1, _⟩ => show win0_7.index _ (1 : Fin 2) * 64 ≤ (i 1).val ∧ (i 1).val < win0_7.index _ (1 : Fin 2) * 64 + 64; rw [e1]; omega

/-- The second output array of region 0 ends as the projected first layer of the arrays the region finds. -/
theorem final0_7 (c : Dev nD) : (dat0 V c).arrAt 7 cfg0.N
    = proj (layerTwo (V c main_arg0) (V c main_v20) (V c main_arg5) (V c main_arg6) (V c main_v21)) (V c main_arg9) :=
  (dat0 V c).arrAt_eq_of_cover 7 _ (fun t _ => flushed0_7_eq V c t) covered0_7

/-! ## Region 1 -/

/-- The printed index maps over the 20 grid points. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem blk1_0 (c : Dev nD) (t : Fin cfg1.N) (p : Fin 5000) (k : Fin 128) :
    iblk1 V c 0 t (ix2 p k) = V c main_v22_0 (ix2 (⟨5000 * t.val + p.val, by have ht : t.val < 20 := t.isLt; have hp : p.val < 5000 := p.isLt; show _ < 100000; omega⟩ : Fin 100000) k) := by
  obtain ⟨e0, e1, _, _, _, _, _, _, _, _⟩ := idx_facts1 t
  show V c main_v22_0 (((cfg1.win 0).blk t).view.emb (ix2 p k)) = _
  refine congrArg _ (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

theorem blk1_1 (c : Dev nD) (t : Fin cfg1.N) (p : Fin 5000) (k : Fin 64) :
    iblk1 V c 1 t (ix2 p k) = V c main_v34 (ix2 (⟨5000 * t.val + p.val, by have ht : t.val < 20 := t.isLt; have hp : p.val < 5000 := p.isLt; show _ < 100000; omega⟩ : Fin 100000) k) := by
  obtain ⟨_, _, e0, e1, _, _, _, _, _, _⟩ := idx_facts1 t
  show V c main_v34 (((cfg1.win 1).blk t).view.emb (ix2 p k)) = _
  refine congrArg _ (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 64 + 1 * k.val = k.val; rw [e1]; omega

theorem blk1_2 (c : Dev nD) (t : Fin cfg1.N) (p : Fin 128) (k : Fin 64) :
    iblk1 V c 2 t (ix2 p k) = V c main_arg8 (ix2 p k) := by
  obtain ⟨_, _, _, _, e0, e1, _, _, _, _⟩ := idx_facts1 t
  show V c main_arg8 (((cfg1.win 2).blk t).view.emb (ix2 p k)) = _
  refine congrArg _ (funext fun a => Fin.ext ?_)
  match a with
  | ⟨0, _⟩ => show win1_2.index t (0 : Fin 2) * 128 + 1 * p.val = p.val; rw [e0]; omega
  | ⟨1, _⟩ => show win1_2.index t (1 : Fin 2) * 64 + 1 * k.val = k.val; rw [e1]; omega

theorem blk1_3 (c : Dev nD) (t : Fin cfg1.N) (p : Fin 1) (k : Fin 64) :
    iblk1 V c 3 t (ix2 p k) = V c main_v35 (ix2 p k) := by
  obtain ⟨_, _, _, _, _, _, e0, e1, _, _⟩ := idx_facts1 t
  show V c main_v35 (((cfg1.win 3).blk t).view.emb (ix2 p k)) = _
  refine congrArg _ (funext fun a => Fin.ext ?_)
  match a with
  | ⟨0, _⟩ => show win1_3.index t (0 : Fin 2) * 1 + 1 * p.val = p.val; rw [e0]; omega
  | ⟨1, _⟩ => show win1_3.index t (1 : Fin 2) * 64 + 1 * k.val = k.val; rw [e1]; omega

/-- Where block t of output window 4 sits: rows 5000 t ... 5000 t + 4999, all 64 columns. -/
theorem emb1_4 (t : Fin cfg1.N) (j : ((cfg1.win 4).xblock (cfg1.grid.coords t)).Idx) :
    ((((cfg1.win 4).blk t).view.emb j) 0).val = 5000 * t.val + (j 0).val ∧ ((((cfg1.win 4).blk t).view.emb j) 1).val = (j 1).val := by
  obtain ⟨_, _, _, _, _, _, _, _, e0, e1⟩ := idx_facts1 t
  constructor
  · show win1_4.index t (0 : Fin 2) * 5000 + 1 * (j 0).val = _; rw [e0]; omega
  · show win1_4.index t (1 : Fin 2) * 64 + 1 * (j 1).val = _; rw [e1]; omega

/-- What point t writes back is block t of the second layer of the whole arrays. -/
theorem flushed1_4_eq (c : Dev nD) (t : Fin cfg1.N) :
    (dat1 V c).flushed 4 t = ((cfg1.win 4).blk t).view.read (Elt Ideal)
      (layerAdd (V c main_v22_0) (V c main_v34) (V c main_arg8) (V c main_v35)) := by
  show (cfg1.win 4).cut (grid1.coords t) ((dat1 V c).after 4 t) = _
  rw [after1_4, KBody.out1_4_eq (iblk1 V c 0 t) (iblk1 V c 1 t) (iblk1 V c 2 t) (iblk1 V c 3 t)]
  funext j
  obtain ⟨h0, h1⟩ := emb1_4 t j
  show layerAdd (iblk1 V c 0 t) (iblk1 V c 1 t) (iblk1 V c 2 t) (iblk1 V c 3 t) j
    = layerAdd (V c main_v22_0) (V c main_v34) (V c main_arg8) (V c main_v35) (((cfg1.win 4).blk t).view.emb j)
  refine layerAdd_at _ _ _ _ _ _ _ _ j _ h1.symm (fun k => ?_) ?_ (fun k q => blk1_2 V c t k q) (fun q => blk1_3 V c t 0 q)
  · exact (blk1_0 V c t (j 0) k).trans (congrArg _ (congrArg (fun r => ix2 r k) (Fin.ext h0.symm)))
  · obtain ⟨_, _, a0, a1, _, _, _, _, b0, b1⟩ := idx_facts1 t
    show V c main_v34 (((cfg1.win 1).blk t).view.emb j) = V c main_v34 (((cfg1.win 4).blk t).view.emb j)
    refine congrArg _ (funext fun a => Fin.ext ?_)
    match a with
    | ⟨0, _⟩ => show win1_1.index t (0 : Fin 2) * 5000 + 1 * (j 0).val = win1_4.index t (0 : Fin 2) * 5000 + 1 * (j 0).val; rw [a0, b0]
    | ⟨1, _⟩ => show win1_1.index t (1 : Fin 2) * 64 + 1 * (j 1).val = win1_4.index t (1 : Fin 2) * 64 + 1 * (j 1).val; rw [a1, b1]

/-- An index of the array is in block t iff each coordinate is in the block's range on its axis. -/
theorem mem_blk1_4 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v36).slice (win1_4.rect t)).set ↔ _
  rw [View.set_slice_whole, Rect.mem_set_unit]
  exact Iff.rfl

/-- Every row is in the block of the point  row / 5000. -/
theorem covered1_4 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have ht : (i 0).val / 5000 < cfg1.N := by show _ < 20; omega
  refine ⟨⟨(i 0).val / 5000, ht⟩, flush1_4 _, ?_⟩
  rw [mem_blk1_4]
  obtain ⟨_, _, _, _, _, _, _, _, e0, e1⟩ := idx_facts1 ⟨(i 0).val / 5000, ht⟩
  intro a
  match a with
  | ⟨0, _⟩ => show win1_4.index _ (0 : Fin 2) * 5000 ≤ (i 0).val ∧ (i 0).val < win1_4.index _ (0 : Fin 2) * 5000 + 5000; rw [e0]; show (i 0).val / 5000 * 5000 ≤ _ ∧ _ < (i 0).val / 5000 * 5000 + 5000; omega
  | ⟨1, _⟩ => show win1_4.index _ (1 : Fin 2) * 64 ≤ (i 1).val ∧ (i 1).val < win1_4.index _ (1 : Fin 2) * 64 + 64; rw [e1]; omega

/-- The output array of region 1 ends as the second layer of the arrays the region finds. -/
theorem final1_4 (c : Dev nD) : (dat1 V c).arrAt 4 cfg1.N
    = layerAdd (V c main_v22_0) (V c main_v34) (V c main_arg8) (V c main_v35) :=
  (dat1 V c).arrAt_eq_of_cover 4 _ (fun t _ => flushed1_4_eq V c t) covered1_4

/-! ## Region 2 -/

/-- The printed index maps over the 200 grid points. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem blk2_0 (c : Dev nD) (t : Fin cfg2.N) (p : Fin 8000) (k : Fin 64) :
    iblk2 V c 0 t (ix2 p k) = V c main_v44 (ix2 (⟨8000 * t.val + p.val, by have ht : t.val < 200 := t.isLt; have hp : p.val < 8000 := p.isLt; show _ < 1600000; omega⟩ : Fin 1600000) k) := by
  obtain ⟨e0, e1, _, _, _, _, _, _, _, _, _, _, _, _, _, _⟩ := idx_facts2 t
  show V c main_v44 (((cfg2.win 0).blk t).view.emb (ix2 p k)) = _
  refine congrArg _ (funext fun a => Fin.ext ?_)
  match a with
  | ⟨0, _⟩ => show win2_0.index t (0 : Fin 2) * 8000 + 1 * p.val = 8000 * t.val + p.val; rw [e0]; omega
  | ⟨1, _⟩ => show win2_0.index t (1 : Fin 2) * 64 + 1 * k.val = k.val; rw [e1]; omega

theorem blk2_1 (c : Dev nD) (t : Fin cfg2.N) (p : Fin 8000) (k : Fin 64) :
    iblk2 V c 1 t (ix2 p k) = V c main_v51 (ix2 (⟨8000 * t.val + p.val, by have ht : t.val < 200 := t.isLt; have hp : p.val < 8000 := p.isLt; show _ < 1600000; omega⟩ : Fin 1600000) k) := by
  obtain ⟨_, _, e0, e1, _, _, _, _, _, _, _, _, _, _, _, _⟩ := idx_facts2 t
  show V c main_v51 (((cfg2.win 1).blk t).view.emb (ix2 p k)) = _
  refine congrArg _ (funext fun a => Fin.ext ?_)
  match a with
  | ⟨0, _⟩ => show win2_1.index t (0 : Fin 2) * 8000 + 1 * p.val = 8000 * t.val + p.val; rw [e0]; omega
  | ⟨1, _⟩ => show win2_1.index t (1 : Fin 2) * 64 + 1 * k.val = k.val; rw [e1]; omega

theorem blk2_2 (c : Dev nD) (t : Fin cfg2.N) (p : Fin 64) (k : Fin 128) :
    iblk2 V c 2 t (ix2 p k) = V c main_v52 (ix2 p k) := by
  obtain ⟨_, _, _, _, e0, e1, _, _, _, _, _, _, _, _, _, _⟩ := idx_facts2 t
  show V c main_v52 (((cfg2.win 2).blk t).view.emb (ix2 p k)) = _
  refine congrArg _ (funext fun a => Fin.ext ?_)
  match a with
  | ⟨0, _⟩ => show win2_2.index t (0 : Fin 2) * 64 + 1 * p.val = p.val; rw [e0]; omega
  | ⟨1, _⟩ => show win2_2.index t (1 : Fin 2) * 128 + 1 * k.val = k.val; rw [e1]; omega

theorem blk2_3 (c : Dev nD) (t : Fin cfg2.N) (p : Fin 64) (k : Fin 128) :
    iblk2 V c 3 t (ix2 p k) = V c main_v53 (ix2 p k) := by
  obtain ⟨_, _, _, _, _, _, e0, e1, _, _, _, _, _, _, _, _⟩ := idx_facts2 t
  show V c main_v53 (((cfg2.win 3).blk t).view.emb (ix2 p k)) = _
  refine congrArg _ (funext fun a => Fin.ext ?_)
  match a with
  | ⟨0, _⟩ => show win2_3.index t (0 : Fin 2) * 64 + 1 * p.val = p.val; rw [e0]; omega
  | ⟨1, _⟩ => show win2_3.index t (1 : Fin 2) * 128 + 1 * k.val = k.val; rw [e1]; omega

theorem blk2_4 (c : Dev nD) (t : Fin cfg2.N) (p : Fin 1) (k : Fin 128) :
    iblk2 V c 4 t (ix2 p k) = V c main_v54 (ix2 p k) := by
  obtain ⟨_, _, _, _, _, _, _, _, e0, e1, _, _, _, _, _, _⟩ := idx_facts2 t
  show V c main_v54 (((cfg2.win 4).blk t).view.emb (ix2 p k)) = _
  refine congrArg _ (funext fun a => Fin.ext ?_)
  match a with
  | ⟨0, _⟩ => show win2_4.index t (0 : Fin 2) * 1 + 1 * p.val = p.val; rw [e0]; omega
  | ⟨1, _⟩ => show win2_4.index t (1 : Fin 2) * 128 + 1 * k.val = k.val; rw [e1]; omega

theorem blk2_5 (c : Dev nD) (t : Fin cfg2.N) (p : Fin 128) (k : Fin 1) :
    iblk2 V c 5 t (ix2 p k) = V c main_arg13 (ix2 p k) := by
  obtain ⟨_, _, _, _, _, _, _, _, _, _, e0, e1, _, _, _, _⟩ := idx_facts2 t
  show V c main_arg13 (((cfg2.win 5).blk t).view.emb (ix2 p k)) = _
  refine congrArg _ (funext fun a => Fin.ext ?_)
  match a with
  | ⟨0, _⟩ => show win2_5.index t (0 : Fin 2) * 128 + 1 * p.val = p.val; rw [e0]; omega
  | ⟨1, _⟩ => show win2_5.index t (1 : Fin 2) * 1 + 1 * k.val = k.val; rw [e1]; omega

theorem blk2_6 (c : Dev nD) (t : Fin cfg2.N) (p : Fin 1) (k : Fin 1) :
    iblk2 V c 6 t (ix2 p k) = V c main_v55 (ix2 p k) := by
  obtain ⟨_, _, _, _, _, _, _, _, _, _, _, _, e0, e1, _, _⟩ := idx_facts2 t
  show V c main_v55 (((cfg2.win 6).blk t).view.emb (ix2 p k)) = _
  refine congrArg _ (funext fun a => Fin.ext ?_)
  match a with
  | ⟨0, _⟩ => show win2_6.index t (0 : Fin 2) * 1 + 1 * p.val = p.val; rw [e0]; omega
  | ⟨1, _⟩ => show win2_6.index t (1 : Fin 2) * 1 + 1 * k.val = k.val; rw [e1]; omega

/-- Where block t of output window 7 sits: rows 8000 t ... 8000 t + 7999, all 1 columns. -/
theorem emb2_7 (t : Fin cfg2.N) (j : ((cfg2.win 7).xblock (cfg2.grid.coords t)).Idx) :
    ((((cfg2.win 7).blk t).view.emb j) 0).val = 8000 * t.val + (j 0).val ∧ ((((cfg2.win 7).blk t).view.emb j) 1).val = (j 1).val := by
  obtain ⟨_, _, _, _, _, _, _, _, _, _, _, _, _, _, e0, e1⟩ := idx_facts2 t
  constructor
  · show win2_7.index t (0 : Fin 2) * 8000 + 1 * (j 0).val = _; rw [e0]; omega
  · show win2_7.index t (1 : Fin 2) * 1 + 1 * (j 1).val = _; rw [e1]; omega

/-- What point t writes back is block t of the edge scores of the whole arrays. -/
theorem flushed2_7_eq (c : Dev nD) (t : Fin cfg2.N) :
    (dat2 V c).flushed 7 t = ((cfg2.win 7).blk t).view.read (Elt Ideal)
      (edgeScore (V c main_v44) (V c main_v51) (V c main_v52) (V c main_v53) (V c main_v54) (V c main_arg13) (V c main_v55)) := by
  show (cfg2.win 7).cut (grid2.coords t) ((dat2 V c).after 7 t) = _
  rw [after2_7, KBody.out2_7_eq (iblk2 V c 0 t) (iblk2 V c 1 t) (iblk2 V c 2 t) (iblk2 V c 3 t) (iblk2 V c 4 t) (iblk2 V c 5 t) (iblk2 V c 6 t)]
  funext j
  obtain ⟨h0, h1⟩ := emb2_7 t j
  show edgeScore (iblk2 V c 0 t) (iblk2 V c 1 t) (iblk2 V c 2 t) (iblk2 V c 3 t) (iblk2 V c 4 t) (iblk2 V c 5 t) (iblk2 V c 6 t) j
    = edgeScore (V c main_v44) (V c main_v51) (V c main_v52) (V c main_v53) (V c main_v54) (V c main_arg13) (V c main_v55) (((cfg2.win 7).blk t).view.emb j)
  refine edgeScore_at _ _ _ _ _ _ _ _ _ _ _ _ _ _ j _ h1.symm (fun k => ?_) (fun k => ?_) (fun k q => blk2_2 V c t k q) (fun k q => blk2_3 V c t k q)
    (fun q => blk2_4 V c t 0 q) (fun k q => blk2_5 V c t k q) (fun q => blk2_6 V c t 0 q)
  · exact (blk2_0 V c t (j 0) k).trans (congrArg _ (congrArg (fun r => ix2 r k) (Fin.ext h0.symm)))
  · exact (blk2_1 V c t (j 0) k).trans (congrArg _ (congrArg (fun r => ix2 r k) (Fin.ext h0.symm)))

/-- An index of the array is in block t iff each coordinate is in the block's range on its axis. -/
theorem mem_blk2_7 (t : Fin cfg2.N) (i : S1600000x1.Idx) :
    i ∈ ((cfg2.win 7).blk t).view.set ↔ ∀ a : Fin 2, win2_7.index t a * S8000x1.size a ≤ (i a).val ∧ (i a).val < win2_7.index t a * S8000x1.size a + S8000x1.size a := by
  show i ∈ ((View.whole main_v56).slice (win2_7.rect t)).set ↔ _
  rw [View.set_slice_whole, Rect.mem_set_unit]
  exact Iff.rfl

/-- Every row is in the block of the point  row / 8000. -/
theorem covered2_7 (i : S1600000x1.Idx) : ∃ t : Fin cfg2.N, (cfg2.win 7).flush t = true ∧ i ∈ ((cfg2.win 7).blk t).view.set := by
  have hi0 : (i 0).val < 1600000 := (i 0).isLt
  have hi1 : (i 1).val < 1 := (i 1).isLt
  have ht : (i 0).val / 8000 < cfg2.N := by show _ < 200; omega
  refine ⟨⟨(i 0).val / 8000, ht⟩, flush2_7 _, ?_⟩
  rw [mem_blk2_7]
  obtain ⟨_, _, _, _, _, _, _, _, _, _, _, _, _, _, e0, e1⟩ := idx_facts2 ⟨(i 0).val / 8000, ht⟩
  intro a
  match a with
  | ⟨0, _⟩ => show win2_7.index _ (0 : Fin 2) * 8000 ≤ (i 0).val ∧ (i 0).val < win2_7.index _ (0 : Fin 2) * 8000 + 8000; rw [e0]; show (i 0).val / 8000 * 8000 ≤ _ ∧ _ < (i 0).val / 8000 * 8000 + 8000; omega
  | ⟨1, _⟩ => show win2_7.index _ (1 : Fin 2) * 1 ≤ (i 1).val ∧ (i 1).val < win2_7.index _ (1 : Fin 2) * 1 + 1; rw [e1]; omega

/-- The output array of region 2 ends as the edge scores of the arrays the region finds. -/
theorem final2_7 (c : Dev nD) : (dat2 V c).arrAt 7 cfg2.N
    = edgeScore (V c main_v44) (V c main_v51) (V c main_v52) (V c main_v53) (V c main_v54) (V c main_arg13) (V c main_v55) :=
  (dat2 V c).arrAt_eq_of_cover 7 _ (fun t _ => flushed2_7_eq V c t) covered2_7

end Cert.KernelIdeal.KBlocks

end
-- ==== Proof.KAfter.lean ====
/-
  The arrays each kernel region finds on entry, as the host operations before it compute them.

  Before region 0 the host computes the in-degree of every node, its clamped inverse as a column, and the mean-aggregated
  input features — the same operations, on the same arguments, as the reference program's first lines — and lays the first
  bias out as one row. Before region 1 it gathers the rows of the projected hidden features along the edges, sums them per
  destination node, scales by the inverse degree, and lays the second bias out as one row. Before region 2 it gathers the
  embeddings of the two end points of every scoring edge (a change of float format is the identity on extended reals),
  takes the upper and the lower 64 rows of the scorer's first weight matrix, and lays its two biases out as rows. Each
  statement reads one of those arrays off the stretch of host operations, in terms of the contents before the stretch.
-/
import proofs.«112630_j80642305949836_2_alg».proof.Proof.Gen.KernelIdeal.Frame
import proofs.«112630_j80642305949836_2_alg».proof.Proof.Gen.ReferenceIdeal.Read
import Idealize.ShloMosaic.Lib.StableHlo.Run

set_option maxRecDepth 16384

noncomputable section

namespace Cert.KernelIdeal.KAfter

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Before region 0 -/

set_option maxHeartbeats 8000000 in
/-- The mean-aggregated input features are the reference's, on the same arguments. -/
theorem v1_v20 (c : Dev nD) : (V1 m ρ c main_v20 : S100000x128.Idx → EReal)
    = Cert.ReferenceIdeal.Read.val_main_v20 (F := Ideal) (m ((c : Thread nD τ).loc main_arg0)) (m ((c : Thread nD τ).loc main_arg1)) (m ((c : Thread nD τ).loc main_arg2)) := by
  dsimp only [V1, W1, hostOps0]
  after_results
  rfl

set_option maxHeartbeats 8000000 in
/-- The inverse clamped in-degree, as a column, is the reference's. -/
theorem v1_v8 (c : Dev nD) : (V1 m ρ c main_v8 : S100000x1.Idx → EReal)
    = Cert.ReferenceIdeal.Read.val_main_v8 (F := Ideal) (m ((c : Thread nD τ).loc main_arg2)) := by
  dsimp only [V1, W1, hostOps0]
  after_results
  rfl

set_option maxHeartbeats 8000000 in
/-- The first bias as one row. -/
theorem v1_v21 (c : Dev nD) : (V1 m ρ c main_v21 : S1x128.Idx → EReal)
    = shapeCast S1x128 (m ((c : Thread nD τ).loc main_arg7)) shapeCasts_S128_S1x128 := by
  dsimp only [V1, W1, hostOps0]
  after_results
  rfl

/-! ## Before region 1 -/

set_option maxHeartbeats 8000000 in
/-- The projected hidden features gathered along the edges, summed per destination node and scaled by the inverse degree. -/
theorem v3_v34 (c : Dev nD) : (V3 m ρ c main_v34 : S100000x64.Idx → EReal)
    = mulf (Host.scatterAdd scatter_S100000x64_S1600000x1_S1600000x64_1_0_0_1
        (broadcastInDim S100000x64 ![] bcast_S_S100000x64 (constant (F := Ideal) S_ .f32 0x00000000#32))
        (Cert.ReferenceIdeal.Read.val_main_v36 (F := Ideal) (W2 m ρ c (Proc.devRef .tc main_arg2)))
        (Host.gather gather_S100000x64_S1600000x1_S1600000x64_1_0_n_n_0_1_164 (W2 m ρ c (Proc.devRef .tc main_v22_1))
          (Cert.ReferenceIdeal.Read.val_main_v33 (F := Ideal) (W2 m ρ c (Proc.devRef .tc main_arg1)))))
      (broadcastInDim S100000x64 ![0, 1] bcast_S100000x1_S100000x64_0_1 (W2 m ρ c (Proc.devRef .tc main_v8))) := by
  dsimp only [V3, W3, hostOps1]
  after_results
  rfl

set_option maxHeartbeats 8000000 in
/-- The second bias as one row. -/
theorem v3_v35 (c : Dev nD) : (V3 m ρ c main_v35 : S1x64.Idx → EReal)
    = shapeCast S1x64 (W2 m ρ c (Proc.devRef .tc main_arg10)) shapeCasts_S64_S1x64 := by
  dsimp only [V3, W3, hostOps1]
  after_results
  rfl

/-! ## Before region 2 -/

set_option maxHeartbeats 8000000 in
/-- The embeddings of the source end points of the scoring edges. -/
theorem v5_v44 (c : Dev nD) : (V5 m ρ c main_v44 : S1600000x64.Idx → EReal)
    = Host.gather gather_S100000x64_S1600000x1_S1600000x64_1_0_n_n_0_1_164 (W4 m ρ c (Proc.devRef .tc main_v36))
        (Cert.ReferenceIdeal.Read.val_main_v52 (F := Ideal) (W4 m ρ c (Proc.devRef .tc main_arg3))) := by
  dsimp only [V5, W5, hostOps2]
  after_results
  rfl

set_option maxHeartbeats 8000000 in
/-- The embeddings of the destination end points of the scoring edges. -/
theorem v5_v51 (c : Dev nD) : (V5 m ρ c main_v51 : S1600000x64.Idx → EReal)
    = Host.gather gather_S100000x64_S1600000x1_S1600000x64_1_0_n_n_0_1_164 (W4 m ρ c (Proc.devRef .tc main_v36))
        (Cert.ReferenceIdeal.Read.val_main_v59 (F := Ideal) (W4 m ρ c (Proc.devRef .tc main_arg4))) := by
  dsimp only [V5, W5, hostOps2]
  after_results
  rfl

set_option maxHeartbeats 8000000 in
/-- The upper 64 rows of the scorer's first weight matrix. -/
theorem v5_v52 (c : Dev nD) : (V5 m ρ c main_v52 : S64x128.Idx → EReal)
    = extractStridedSlice S64x128 ![0, 0] (W4 m ρ c (Proc.devRef .tc main_arg11)) slices_S128x128_S64x128_0_0 := by
  dsimp only [V5, W5, hostOps2]
  after_results

set_option maxHeartbeats 8000000 in
/-- The lower 64 rows of the scorer's first weight matrix. -/
theorem v5_v53 (c : Dev nD) : (V5 m ρ c main_v53 : S64x128.Idx → EReal)
    = extractStridedSlice S64x128 ![64, 0] (W4 m ρ c (Proc.devRef .tc main_arg11)) slices_S128x128_S64x128_64_0 := by
  dsimp only [V5, W5, hostOps2]
  after_results

set_option maxHeartbeats 8000000 in
/-- The scorer's first bias as one row. -/
theorem v5_v54 (c : Dev nD) : (V5 m ρ c main_v54 : S1x128.Idx → EReal)
    = shapeCast S1x128 (W4 m ρ c (Proc.devRef .tc main_arg12)) shapeCasts_S128_S1x128 := by
  dsimp only [V5, W5, hostOps2]
  after_results
  rfl

set_option maxHeartbeats 8000000 in
/-- The scorer's second bias as one row. -/
theorem v5_v55 (c : Dev nD) : (V5 m ρ c main_v55 : S1x1.Idx → EReal)
    = shapeCast S1x1 (W4 m ρ c (Proc.devRef .tc main_arg14)) shapeCasts_S1_S1x1 := by
  dsimp only [V5, W5, hostOps2]
  after_results
  rfl

end Cert.KernelIdeal.KAfter

end
-- ==== Proof.KArgs.lean ====
/-
  The kernel program runs as three stretches of host operations alternating with three pipelined regions. The buffer
  contents at the six boundaries form a fold from the launch memory. Here an argument's buffer (and three intermediate
  arrays) is read at an INTERMEDIATE boundary: a stretch leaves alone every buffer none of its operations writes, and a
  region leaves alone every buffer that is not one of its windows' arrays, so the fold walks back level by level to the
  launch memory (or to the boundary where the array was produced).
-/
import proofs.«112630_j80642305949836_2_alg».proof.Proof.Gen.KernelIdeal.Frame

set_option maxRecDepth 16384

noncomputable section

namespace Cert.KernelIdeal.KArgs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A stretch of host operations leaves a buffer as it found it when none of its operations writes that buffer: the
    stretch's writes are listed, and the reference differs from each of them. -/
local macro "stretch_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The first region's entry: the first stretch writes no argument -/

theorem w1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by stretch_keeps hostOps0
    _ = m ((c : Thread nD τ).loc main_arg0) := rfl

theorem w1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by stretch_keeps hostOps0
    _ = m ((c : Thread nD τ).loc main_arg1) := rfl

theorem w1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by stretch_keeps hostOps0
    _ = m ((c : Thread nD τ).loc main_arg2) := rfl

theorem w1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by stretch_keeps hostOps0
    _ = m ((c : Thread nD τ).loc main_arg3) := rfl

theorem w1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by stretch_keeps hostOps0
    _ = m ((c : Thread nD τ).loc main_arg4) := rfl

theorem w1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by stretch_keeps hostOps0
    _ = m ((c : Thread nD τ).loc main_arg5) := rfl

theorem w1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := by stretch_keeps hostOps0
    _ = m ((c : Thread nD τ).loc main_arg6) := rfl

theorem w1_arg8 (c : Dev nD) : W1 m ρ c (Proc.devRef .tc main_arg8) = m ((c : Thread nD τ).loc main_arg8) :=
  calc W1 m ρ c (Proc.devRef .tc main_arg8)
    _ = W0 m ρ c (Proc.devRef .tc main_arg8) := by stretch_keeps hostOps0
    _ = m ((c : Thread nD τ).loc main_arg8) := rfl

theorem w1_arg9 (c : Dev nD) : W1 m ρ c (Proc.devRef .tc main_arg9) = m ((c : Thread nD τ).loc main_arg9) :=
  calc W1 m ρ c (Proc.devRef .tc main_arg9)
    _ = W0 m ρ c (Proc.devRef .tc main_arg9) := by stretch_keeps hostOps0
    _ = m ((c : Thread nD τ).loc main_arg9) := rfl

theorem w1_arg10 (c : Dev nD) : W1 m ρ c (Proc.devRef .tc main_arg10) = m ((c : Thread nD τ).loc main_arg10) :=
  calc W1 m ρ c (Proc.devRef .tc main_arg10)
    _ = W0 m ρ c (Proc.devRef .tc main_arg10) := by stretch_keeps hostOps0
    _ = m ((c : Thread nD τ).loc main_arg10) := rfl

theorem w1_arg11 (c : Dev nD) : W1 m ρ c (Proc.devRef .tc main_arg11) = m ((c : Thread nD τ).loc main_arg11) :=
  calc W1 m ρ c (Proc.devRef .tc main_arg11)
    _ = W0 m ρ c (Proc.devRef .tc main_arg11) := by stretch_keeps hostOps0
    _ = m ((c : Thread nD τ).loc main_arg11) := rfl

theorem w1_arg12 (c : Dev nD) : W1 m ρ c (Proc.devRef .tc main_arg12) = m ((c : Thread nD τ).loc main_arg12) :=
  calc W1 m ρ c (Proc.devRef .tc main_arg12)
    _ = W0 m ρ c (Proc.devRef .tc main_arg12) := by stretch_keeps hostOps0
    _ = m ((c : Thread nD τ).loc main_arg12) := rfl

theorem w1_arg13 (c : Dev nD) : W1 m ρ c (Proc.devRef .tc main_arg13) = m ((c : Thread nD τ).loc main_arg13) :=
  calc W1 m ρ c (Proc.devRef .tc main_arg13)
    _ = W0 m ρ c (Proc.devRef .tc main_arg13) := by stretch_keeps hostOps0
    _ = m ((c : Thread nD τ).loc main_arg13) := rfl

theorem w1_arg14 (c : Dev nD) : W1 m ρ c (Proc.devRef .tc main_arg14) = m ((c : Thread nD τ).loc main_arg14) :=
  calc W1 m ρ c (Proc.devRef .tc main_arg14)
    _ = W0 m ρ c (Proc.devRef .tc main_arg14) := by stretch_keeps hostOps0
    _ = m ((c : Thread nD τ).loc main_arg14) := rfl

/-! ## The first region's exit: a buffer that is none of the region's arrays is as it was at the entry -/

theorem w2_arg1 (c : Dev nD) : W2 m ρ c (Proc.devRef .tc main_arg1) = m ((c : Thread nD τ).loc main_arg1) :=
  (W2_of_ne m ρ c main_arg1 (by decide)).trans (w1_arg1 m ρ c)

theorem w2_arg2 (c : Dev nD) : W2 m ρ c (Proc.devRef .tc main_arg2) = m ((c : Thread nD τ).loc main_arg2) :=
  (W2_of_ne m ρ c main_arg2 (by decide)).trans (w1_arg2 m ρ c)

theorem w2_arg3 (c : Dev nD) : W2 m ρ c (Proc.devRef .tc main_arg3) = m ((c : Thread nD τ).loc main_arg3) :=
  (W2_of_ne m ρ c main_arg3 (by decide)).trans (w1_arg3 m ρ c)

theorem w2_arg4 (c : Dev nD) : W2 m ρ c (Proc.devRef .tc main_arg4) = m ((c : Thread nD τ).loc main_arg4) :=
  (W2_of_ne m ρ c main_arg4 (by decide)).trans (w1_arg4 m ρ c)

theorem w2_arg8 (c : Dev nD) : W2 m ρ c (Proc.devRef .tc main_arg8) = m ((c : Thread nD τ).loc main_arg8) :=
  (W2_of_ne m ρ c main_arg8 (by decide)).trans (w1_arg8 m ρ c)

theorem w2_arg10 (c : Dev nD) : W2 m ρ c (Proc.devRef .tc main_arg10) = m ((c : Thread nD τ).loc main_arg10) :=
  (W2_of_ne m ρ c main_arg10 (by decide)).trans (w1_arg10 m ρ c)

theorem w2_arg11 (c : Dev nD) : W2 m ρ c (Proc.devRef .tc main_arg11) = m ((c : Thread nD τ).loc main_arg11) :=
  (W2_of_ne m ρ c main_arg11 (by decide)).trans (w1_arg11 m ρ c)

theorem w2_arg12 (c : Dev nD) : W2 m ρ c (Proc.devRef .tc main_arg12) = m ((c : Thread nD τ).loc main_arg12) :=
  (W2_of_ne m ρ c main_arg12 (by decide)).trans (w1_arg12 m ρ c)

theorem w2_arg13 (c : Dev nD) : W2 m ρ c (Proc.devRef .tc main_arg13) = m ((c : Thread nD τ).loc main_arg13) :=
  (W2_of_ne m ρ c main_arg13 (by decide)).trans (w1_arg13 m ρ c)

theorem w2_arg14 (c : Dev nD) : W2 m ρ c (Proc.devRef .tc main_arg14) = m ((c : Thread nD τ).loc main_arg14) :=
  (W2_of_ne m ρ c main_arg14 (by decide)).trans (w1_arg14 m ρ c)

/-- An array the first stretch produced and the first region does not stage keeps its contents through the region. -/
theorem w2_v8 (c : Dev nD) : W2 m ρ c (Proc.devRef .tc main_v8) = W1 m ρ c (Proc.devRef .tc main_v8) :=
  W2_of_ne m ρ c main_v8 (by decide)

/-! ## The second region's entry: the second stretch writes neither an argument nor the first region's output -/

theorem w3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by stretch_keeps hostOps1
    _ = m ((c : Thread nD τ).loc main_arg3) := w2_arg3 m ρ c

theorem w3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by stretch_keeps hostOps1
    _ = m ((c : Thread nD τ).loc main_arg4) := w2_arg4 m ρ c

theorem w3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by stretch_keeps hostOps1
    _ = m ((c : Thread nD τ).loc main_arg8) := w2_arg8 m ρ c

theorem w3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := by stretch_keeps hostOps1
    _ = m ((c : Thread nD τ).loc main_arg11) := w2_arg11 m ρ c

theorem w3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := by stretch_keeps hostOps1
    _ = m ((c : Thread nD τ).loc main_arg12) := w2_arg12 m ρ c

theorem w3_arg13 (c : Dev nD) : W3 m ρ c (Proc.devRef .tc main_arg13) = m ((c : Thread nD τ).loc main_arg13) :=
  calc W3 m ρ c (Proc.devRef .tc main_arg13)
    _ = W2 m ρ c (Proc.devRef .tc main_arg13) := by stretch_keeps hostOps1
    _ = m ((c : Thread nD τ).loc main_arg13) := w2_arg13 m ρ c

theorem w3_arg14 (c : Dev nD) : W3 m ρ c (Proc.devRef .tc main_arg14) = m ((c : Thread nD τ).loc main_arg14) :=
  calc W3 m ρ c (Proc.devRef .tc main_arg14)
    _ = W2 m ρ c (Proc.devRef .tc main_arg14) := by stretch_keeps hostOps1
    _ = m ((c : Thread nD τ).loc main_arg14) := w2_arg14 m ρ c

/-- The first region's output array is not written by the second stretch. -/
theorem w3_v22_0 (c : Dev nD) : W3 m ρ c (Proc.devRef .tc main_v22_0) = W2 m ρ c (Proc.devRef .tc main_v22_0) := by
  stretch_keeps hostOps1

/-! ## The second region's exit -/

theorem w4_arg3 (c : Dev nD) : W4 m ρ c (Proc.devRef .tc main_arg3) = m ((c : Thread nD τ).loc main_arg3) :=
  (W4_of_ne m ρ c main_arg3 (by decide)).trans (w3_arg3 m ρ c)

theorem w4_arg4 (c : Dev nD) : W4 m ρ c (Proc.devRef .tc main_arg4) = m ((c : Thread nD τ).loc main_arg4) :=
  (W4_of_ne m ρ c main_arg4 (by decide)).trans (w3_arg4 m ρ c)

theorem w4_arg11 (c : Dev nD) : W4 m ρ c (Proc.devRef .tc main_arg11) = m ((c : Thread nD τ).loc main_arg11) :=
  (W4_of_ne m ρ c main_arg11 (by decide)).trans (w3_arg11 m ρ c)

theorem w4_arg12 (c : Dev nD) : W4 m ρ c (Proc.devRef .tc main_arg12) = m ((c : Thread nD τ).loc main_arg12) :=
  (W4_of_ne m ρ c main_arg12 (by decide)).trans (w3_arg12 m ρ c)

theorem w4_arg13 (c : Dev nD) : W4 m ρ c (Proc.devRef .tc main_arg13) = m ((c : Thread nD τ).loc main_arg13) :=
  (W4_of_ne m ρ c main_arg13 (by decide)).trans (w3_arg13 m ρ c)

theorem w4_arg14 (c : Dev nD) : W4 m ρ c (Proc.devRef .tc main_arg14) = m ((c : Thread nD τ).loc main_arg14) :=
  (W4_of_ne m ρ c main_arg14 (by decide)).trans (w3_arg14 m ρ c)

/-! ## The third region's entry and exit -/

theorem w5_arg13 (c : Dev nD) : W5 m ρ c (Proc.devRef .tc main_arg13) = m ((c : Thread nD τ).loc main_arg13) :=
  calc W5 m ρ c (Proc.devRef .tc main_arg13)
    _ = W4 m ρ c (Proc.devRef .tc main_arg13) := by stretch_keeps hostOps2
    _ = m ((c : Thread nD τ).loc main_arg13) := w4_arg13 m ρ c

/-- The second region's output array is not written by the third stretch … -/
theorem w5_v36 (c : Dev nD) : W5 m ρ c (Proc.devRef .tc main_v36) = W4 m ρ c (Proc.devRef .tc main_v36) := by
  stretch_keeps hostOps2

/-- … and is none of the third region's arrays: at the return it is what the second region left. -/
theorem w6_v36 (c : Dev nD) : W6 m ρ c (Proc.devRef .tc main_v36) = W4 m ρ c (Proc.devRef .tc main_v36) :=
  (W6_of_ne m ρ c main_v36 (by decide)).trans (w5_v36 m ρ c)

end Cert.KernelIdeal.KArgs

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.LibExpLog.lean ====
/-
  GENERAL lemmas on the exponential, the logarithm and the logistic function of the extended reals, with the exact
  ("ideal") float operations. Nothing here mentions a program.

  * log_exp: log (exp x) = x for EVERY extended real x — exp sends -inf to 0 and log sends 0 back to -inf, +inf is fixed
    by both, and on a real number it is the real identity. (The other composition, exp (log x) = x, fails below 0.)
  * add_sub_cancel_isR: (a + b) - b = a when a and b are real numbers (with an infinite b the difference is a junk value).
  * logistic_spelled: 1 / (1 + exp (-x)), the 1 written as its f32 word and the quotient the extended reals' quotient, is
    the logistic function at every x, the infinities included.
  It imports LibMoments.lean of the same directory (the predicate "is a real number" and the f32 word of 1), so copy the two
  together.
-/
import Idealize.ShloMosaic.PureOps.Ideal
import proofs.«112630_j80642305949836_2_alg».proof.Proof.LibMoments

noncomputable section

namespace Cert.LibExpLog

open Idealize.ShloMosaic Cert.LibMoments

/-- The logarithm undoes the exponential on all of the extended reals. -/
theorem log_exp (x : EReal) : Ideal.log (Ideal.exp x) = x := by
  induction x using EReal.rec with
  | bot => rw [Ideal.exp_bot, ← EReal.coe_zero, Ideal.log_coe, if_pos le_rfl]
  | coe r => rw [Ideal.exp_coe, Ideal.log_coe, if_neg (not_le.mpr (Real.exp_pos r)), Real.log_exp]
  | top => rw [Ideal.exp_top, Ideal.log_top]

/-- Adding and then subtracting a real number leaves a real number as it was. -/
theorem add_sub_cancel_isR {a b : EReal} (ha : IsR a) (hb : IsR b) : a + b - b = a := by
  obtain ⟨x, rfl⟩ := ha
  obtain ⟨y, rfl⟩ := hb
  rw [← EReal.coe_add, ← EReal.coe_sub, add_sub_cancel_right]

/-- 1 / (1 + exp (-x)), written with the float word of 1, is the logistic function. -/
theorem logistic_spelled (x : EReal) :
    Ideal.div (Ideal.ofBits .f32 0x3F800000#32) (Ideal.ofBits .f32 0x3F800000#32 + Ideal.exp (-x)) = Ideal.logistic x := by
  rw [ofBits_one]; rfl

end Cert.LibExpLog

end
-- ==== Proof.RefRead.lean ====
/-
  The reference program's three dense stages, read element by element and identified with the stage functions of the
  specification: the first layer, the second layer and the edge scorer. Each result is taken at an index (p, q); the sums of
  products are the matrix products, the bias reaches every row through two broadcasts, and the rectifier is the larger of the
  sum and zero. The aggregated neighbour terms and the gathered endpoint rows stay opaque arguments of the stage functions.
-/
import proofs.«112630_j80642305949836_2_alg».proof.Proof.Gen.ReferenceIdeal.Read
import proofs.«112630_j80642305949836_2_alg».proof.Proof.Spec
import proofs.«112630_j80642305949836_2_alg».proof.Proof.LibExpLog

noncomputable section

namespace Cert.RefRead

open Cert.ReferenceIdeal Cert.ReferenceIdeal.Read Idealize.ShloMosaic Idealize.ShloMosaic.ValueIdx
open scoped BigOperators

/-- The first layer: at (p, q) the larger of ((sum_k x0(p,k) x5(k,q)) + (sum_k agg(p,k) x6(k,q))) + x7(q) and zero. -/
theorem ref_h1 (x0 : (⟨S100000x128, .f32⟩ : BufTy).Contents (Elt Ideal)) (x1 x2 : (⟨S1600000, .i32⟩ : BufTy).Contents (Elt Ideal))
    (x5 x6 : (⟨S128x128, .f32⟩ : BufTy).Contents (Elt Ideal)) (x7 : (⟨S128, .f32⟩ : BufTy).Contents (Elt Ideal)) :
    val_main_v27 (F := Ideal) x0 x1 x2 x5 x6 x7
      = Cert.Spec.layerTwo x0 (val_main_v20 (F := Ideal) x0 x1 x2) x5 x6 (Cert.Spec.rowMat x7) := by
  funext i
  obtain ⟨p, q, rfl⟩ : ∃ (p : Fin 100000) (q : Fin 128), i = ix2 p q := ⟨i 0, i 1, eq_ix2 i⟩
  have el1 : ∀ k : Fin 128, lidx_main_v21 (ix2 p q) k = ix2 p k := fun k => funext fun a => Fin.ext (by
    match a with | ⟨0, _⟩ => rfl | ⟨1, _⟩ => rfl)
  have er1 : ∀ k : Fin 128, ridx_main_v21 (ix2 p q) k = ix2 k q := fun k => funext fun a => Fin.ext (by
    match a with | ⟨0, _⟩ => rfl | ⟨1, _⟩ => rfl)
  have el2 : ∀ k : Fin 128, lidx_main_v22 (ix2 p q) k = ix2 p k := fun k => funext fun a => Fin.ext (by
    match a with | ⟨0, _⟩ => rfl | ⟨1, _⟩ => rfl)
  have er2 : ∀ k : Fin 128, ridx_main_v22 (ix2 p q) k = ix2 k q := fun k => funext fun a => Fin.ext (by
    match a with | ⟨0, _⟩ => rfl | ⟨1, _⟩ => rfl)
  have eb : idx_main_v24 (idx_main_v25 (ix2 p q)) = ix1 q := funext fun a => Fin.ext (by
    match a with | ⟨0, _⟩ => rfl)
  rw [val_main_v27_apply, val_main_v26_apply, val_main_v23_apply, val_main_v21_apply, val_main_v22_apply, val_main_v25_apply,
    val_main_v24_apply, val_main_call0_v0_apply, val_main_call0_cst_apply]
  simp only [el1, er1, el2, er2, eb]
  rfl

/-- The second layer: at (p, q) the larger of ((sum_k h1(p,k) x8(k,q)) + (sum_k agg2(p,k) x9(k,q))) + x10(q) and zero, the
    second sum being the (p, q) entry of the product of the aggregated term with x9. -/
theorem ref_h2 (x0 : (⟨S100000x128, .f32⟩ : BufTy).Contents (Elt Ideal)) (x1 x2 : (⟨S1600000, .i32⟩ : BufTy).Contents (Elt Ideal))
    (x5 x6 : (⟨S128x128, .f32⟩ : BufTy).Contents (Elt Ideal)) (x7 : (⟨S128, .f32⟩ : BufTy).Contents (Elt Ideal))
    (x8 x9 : (⟨S128x64, .f32⟩ : BufTy).Contents (Elt Ideal)) (x10 : (⟨S64, .f32⟩ : BufTy).Contents (Elt Ideal)) :
    val_main_v46 (F := Ideal) x0 x1 x2 x5 x6 x7 x8 x9 x10
      = Cert.Spec.layerAdd (val_main_v27 (F := Ideal) x0 x1 x2 x5 x6 x7)
          (Cert.Spec.proj (val_main_v39 (F := Ideal) x0 x1 x2 x5 x6 x7) x9) x8 (Cert.Spec.rowMat x10) := by
  funext i
  obtain ⟨p, q, rfl⟩ : ∃ (p : Fin 100000) (q : Fin 64), i = ix2 p q := ⟨i 0, i 1, eq_ix2 i⟩
  have el1 : ∀ k : Fin 128, lidx_main_v40 (ix2 p q) k = ix2 p k := fun k => funext fun a => Fin.ext (by
    match a with | ⟨0, _⟩ => rfl | ⟨1, _⟩ => rfl)
  have er1 : ∀ k : Fin 128, ridx_main_v40 (ix2 p q) k = ix2 k q := fun k => funext fun a => Fin.ext (by
    match a with | ⟨0, _⟩ => rfl | ⟨1, _⟩ => rfl)
  have el2 : ∀ k : Fin 128, lidx_main_v41 (ix2 p q) k = ix2 p k := fun k => funext fun a => Fin.ext (by
    match a with | ⟨0, _⟩ => rfl | ⟨1, _⟩ => rfl)
  have er2 : ∀ k : Fin 128, ridx_main_v41 (ix2 p q) k = ix2 k q := fun k => funext fun a => Fin.ext (by
    match a with | ⟨0, _⟩ => rfl | ⟨1, _⟩ => rfl)
  have eb : idx_main_v43 (idx_main_v44 (ix2 p q)) = ix1 q := funext fun a => Fin.ext (by
    match a with | ⟨0, _⟩ => rfl)
  rw [val_main_v46_apply, val_main_v45_apply, val_main_v42_apply, val_main_v40_apply, val_main_v41_apply, val_main_v44_apply,
    val_main_v43_apply, val_main_call1_v0_apply, val_main_call1_cst_apply]
  simp only [el1, er1, el2, er2, eb]
  rfl

/-! ## Two matrices joined along the columns, against a matrix of weights -/

/-- Two matrices joined along the columns, read at a column inside the first piece. -/
theorem cat_fst {α : Type} {R a b n : ℕ} (x : (⟨2, ![R, a]⟩ : Shape).Idx → α) (y : (⟨2, ![R, b]⟩ : Shape).Idx → α)
    (h : Shape.Concatenates [⟨2, ![R, a]⟩, ⟨2, ![R, b]⟩] ⟨2, ![R, n]⟩ 1) (p : Fin R) (k : Fin n) (i : Fin a)
    (hk : k.val = i.val) :
    concatenate ⟨2, ![R, n]⟩ 1 [⟨⟨2, ![R, a]⟩, x⟩, ⟨⟨2, ![R, b]⟩, y⟩] h (ix2 p k) = x (ix2 p i) :=
  concatenate_pair_apply_left 1 x y h (ix2 p k) rfl (ix2 p i) (fun c => by
    match c with
    | ⟨0, _⟩ => rfl
    | ⟨1, _⟩ => exact hk.symm)

/-- Two matrices joined along the columns, read at a column inside the second piece: column a + i of the whole. -/
theorem cat_snd {α : Type} {R a b n : ℕ} (x : (⟨2, ![R, a]⟩ : Shape).Idx → α) (y : (⟨2, ![R, b]⟩ : Shape).Idx → α)
    (h : Shape.Concatenates [⟨2, ![R, a]⟩, ⟨2, ![R, b]⟩] ⟨2, ![R, n]⟩ 1) (p : Fin R) (k : Fin n) (i : Fin b)
    (hk : k.val = a + i.val) :
    concatenate ⟨2, ![R, n]⟩ 1 [⟨⟨2, ![R, a]⟩, x⟩, ⟨⟨2, ![R, b]⟩, y⟩] h (ix2 p k) = y (ix2 p i) :=
  concatenate_pair_apply_right 1 x y h (ix2 p k) rfl rfl (ix2 p i) (fun c hc => by
    match c with
    | ⟨0, _⟩ => rfl
    | ⟨1, _⟩ => exact absurd rfl hc) (by show i.val + a = k.val; omega)

/-- Row e of two matrices joined along the columns, against column j of W: the first piece against the first a rows of W
    plus the second piece against the next b rows. Only the splitting of a sum over a + b indices is used. -/
theorem cat_dot {R a b n M : ℕ} (X : Cert.Spec.Mat R a) (Y : Cert.Spec.Mat R b) (W : Cert.Spec.Mat n M)
    (h : Shape.Concatenates [⟨2, ![R, a]⟩, ⟨2, ![R, b]⟩] ⟨2, ![R, n]⟩ 1) (hn : n = a + b) (h0 : 0 + a ≤ n) (h1 : a + b ≤ n)
    (e : Fin R) (j : Fin M) :
    ∑ k : Fin n, concatenate ⟨2, ![R, n]⟩ 1 [⟨⟨2, ![R, a]⟩, X⟩, ⟨⟨2, ![R, b]⟩, Y⟩] h (ix2 e k) * W (ix2 k j)
      = Cert.Spec.dotAt X (Cert.Spec.rowsFrom a 0 h0 W) e j + Cert.Spec.dotAt Y (Cert.Spec.rowsFrom b a h1 W) e j := by
  subst hn
  rw [Fin.sum_univ_add]
  unfold Cert.Spec.dotAt
  congr 1
  · refine Finset.sum_congr rfl fun k _ => ?_
    rw [cat_fst X Y h e (Fin.castAdd b k) k rfl, Cert.Spec.rowsFrom_apply]
    exact congrArg (fun r => X (ix2 e k) * W (ix2 r j)) (Fin.ext (Nat.zero_add k.val).symm)
  · refine Finset.sum_congr rfl fun k _ => ?_
    rw [cat_snd X Y h e (Fin.natAdd a k) k rfl, Cert.Spec.rowsFrom_apply]
    rfl

/-! ## The edge scorer -/

/-- The scorer's hidden layer at (e, j): the larger of ((first endpoint rows against rows 0..63 of x11) + (second endpoint
    rows against rows 64..127 of x11)) + x12(j) and zero. -/
theorem hidden_at (x0 : (⟨S100000x128, .f32⟩ : BufTy).Contents (Elt Ideal)) (x1 x2 x3 x4 : (⟨S1600000, .i32⟩ : BufTy).Contents (Elt Ideal))
    (x5 x6 : (⟨S128x128, .f32⟩ : BufTy).Contents (Elt Ideal)) (x7 : (⟨S128, .f32⟩ : BufTy).Contents (Elt Ideal))
    (x8 x9 : (⟨S128x64, .f32⟩ : BufTy).Contents (Elt Ideal)) (x10 : (⟨S64, .f32⟩ : BufTy).Contents (Elt Ideal))
    (x11 : (⟨S128x128, .f32⟩ : BufTy).Contents (Elt Ideal)) (x12 : (⟨S128, .f32⟩ : BufTy).Contents (Elt Ideal))
    (e : Fin 1600000) (j : Fin 128) :
    val_main_v66 (F := Ideal) x0 x1 x2 x3 x4 x5 x6 x7 x8 x9 x10 x11 x12 (ix2 e j)
      = Cert.Spec.hiddenAt (val_main_v53 (F := Ideal) x0 x1 x2 x3 x5 x6 x7 x8 x9 x10) (val_main_v60 (F := Ideal) x0 x1 x2 x4 x5 x6 x7 x8 x9 x10)
          (Cert.Spec.rowsFrom 64 0 (by decide) x11) (Cert.Spec.rowsFrom 64 64 (by decide) x11) (Cert.Spec.rowMat x12) e j := by
  have el : ∀ k : Fin 128, lidx_main_v62 (ix2 e j) k = ix2 e k := fun k => funext fun a => Fin.ext (by
    match a with | ⟨0, _⟩ => rfl | ⟨1, _⟩ => rfl)
  have er : ∀ k : Fin 128, ridx_main_v62 (ix2 e j) k = ix2 k j := fun k => funext fun a => Fin.ext (by
    match a with | ⟨0, _⟩ => rfl | ⟨1, _⟩ => rfl)
  have eb : idx_main_v63 (idx_main_v64 (ix2 e j)) = ix1 j := funext fun a => Fin.ext (by
    match a with | ⟨0, _⟩ => rfl)
  have hs : (∑ k : Fin 128, val_main_v61 (F := Ideal) x0 x1 x2 x3 x4 x5 x6 x7 x8 x9 x10 (ix2 e k) * x11 (ix2 k j))
      = Cert.Spec.dotAt (val_main_v53 (F := Ideal) x0 x1 x2 x3 x5 x6 x7 x8 x9 x10) (Cert.Spec.rowsFrom 64 0 (by decide) x11) e j
        + Cert.Spec.dotAt (val_main_v60 (F := Ideal) x0 x1 x2 x4 x5 x6 x7 x8 x9 x10) (Cert.Spec.rowsFrom 64 64 (by decide) x11) e j :=
    cat_dot (val_main_v53 (F := Ideal) x0 x1 x2 x3 x5 x6 x7 x8 x9 x10) (val_main_v60 (F := Ideal) x0 x1 x2 x4 x5 x6 x7 x8 x9 x10) x11
      Facts₀.concatenates_S1600000x64_S1600000x64_S1600000x128_d1 rfl (by decide) (by decide) e j
  rw [val_main_v66_apply, val_main_v65_apply, val_main_v62_apply, val_main_v64_apply, val_main_v63_apply,
    val_main_call2_v0_apply, val_main_call2_cst_apply]
  simp only [el, er, eb]
  rw [hs]
  rfl

/-- The scorer: the logistic function of (sum_j hidden(e,j) x13(j,u)) + x14(u), the quotient 1 / (1 + exp(-s)) of the program
    being the logistic function at every extended real s. -/
theorem ref_score (x0 : (⟨S100000x128, .f32⟩ : BufTy).Contents (Elt Ideal)) (x1 x2 x3 x4 : (⟨S1600000, .i32⟩ : BufTy).Contents (Elt Ideal))
    (x5 x6 : (⟨S128x128, .f32⟩ : BufTy).Contents (Elt Ideal)) (x7 : (⟨S128, .f32⟩ : BufTy).Contents (Elt Ideal))
    (x8 x9 : (⟨S128x64, .f32⟩ : BufTy).Contents (Elt Ideal)) (x10 : (⟨S64, .f32⟩ : BufTy).Contents (Elt Ideal))
    (x11 : (⟨S128x128, .f32⟩ : BufTy).Contents (Elt Ideal)) (x12 : (⟨S128, .f32⟩ : BufTy).Contents (Elt Ideal))
    (x13 : (⟨S128x1, .f32⟩ : BufTy).Contents (Elt Ideal)) (x14 : (⟨S1, .f32⟩ : BufTy).Contents (Elt Ideal)) :
    val_main_v76 (F := Ideal) x0 x1 x2 x3 x4 x5 x6 x7 x8 x9 x10 x11 x12 x13 x14
      = Cert.Spec.edgeScore (val_main_v53 (F := Ideal) x0 x1 x2 x3 x5 x6 x7 x8 x9 x10) (val_main_v60 (F := Ideal) x0 x1 x2 x4 x5 x6 x7 x8 x9 x10)
          (Cert.Spec.rowsFrom 64 0 (by decide) x11) (Cert.Spec.rowsFrom 64 64 (by decide) x11) (Cert.Spec.rowMat x12) x13
          (Cert.Spec.rowMat x14) := by
  funext i
  obtain ⟨e, u, rfl⟩ : ∃ (e : Fin 1600000) (u : Fin 1), i = ix2 e u := ⟨i 0, i 1, eq_ix2 i⟩
  have el : ∀ k : Fin 128, lidx_main_v67 (ix2 e u) k = ix2 e k := fun k => funext fun a => Fin.ext (by
    match a with | ⟨0, _⟩ => rfl | ⟨1, _⟩ => rfl)
  have er : ∀ k : Fin 128, ridx_main_v67 (ix2 e u) k = ix2 k u := fun k => funext fun a => Fin.ext (by
    match a with | ⟨0, _⟩ => rfl | ⟨1, _⟩ => rfl)
  have eb : idx_main_v68 (idx_main_v69 (ix2 e u)) = ix1 u := funext fun a => Fin.ext (by
    match a with | ⟨0, _⟩ => exact (Fin.val_eq_zero u).symm)
  rw [val_main_v76_apply, val_main_v75_apply, val_main_cst_13_apply, val_main_v74_apply, val_main_v73_apply,
    val_main_cst_12_apply, val_main_v72_apply, val_main_v71_apply, val_main_v70_apply, val_main_v67_apply, val_main_v69_apply,
    val_main_v68_apply]
  simp only [el, er, eb, hidden_at]
  exact Cert.LibExpLog.logistic_spelled _

end Cert.RefRead

end
-- ==== Proof.Finite.lean ====
/-
  Every float input is a real number. The precondition of this certificate is the conjunction, one test per float
  argument array, of "all entries x satisfy |x| < +inf", each test a reduction by "and" over all axes of the
  elementwise comparison of max x (-x) with the pattern 0x7F800000 (+inf). In the extended reals max x (-x) < +inf
  excludes both infinities: at -inf and at +inf the maximum is +inf. So every entry of every float argument is the
  image of a real number.
-/
import proofs.«112630_j80642305949836_2_alg».proof.Defs
import Idealize.ShloMosaic.Lib.ReduceAll
import Idealize.ShloMosaic.Lib.ValueIdx

noncomputable section

namespace Cert.Finite

open Idealize.ShloMosaic Idealize.SL.Sem

/-- The rank-0 shape has one index. -/
instance : Subsingleton (⟨0, ![]⟩ : Shape).Idx := ⟨fun a b => funext fun d => d.elim0⟩

/-- The f32 pattern 0x7F800000 denotes +inf. -/
theorem ofBits_inf : Ideal.ofBits .f32 0x7F800000#32 = (⊤ : EReal) := by
  simp [Ideal.ofBits, Ideal.ieee]

/-- An extended real x with max x (-x) < +inf is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One word is 1 exactly when the boolean it encodes is true. -/
theorem ofBool_eq_one (b : Bool) : BitVec.ofBool b = 1#1 ↔ b = true := by cases b <;> decide

/-- The elementwise test "|x| < +inf" that came out 1 says x is real. -/
theorem real_of_cmp (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one] at h
  exact real_of_abs_lt_top x (of_decide_eq_true h)

/-- The test "all entries x of the array satisfy |x| < +inf", a reduction by "and" over all axes of the elementwise
    comparison with the broadcast pattern of +inf, that came out 1 says every entry is real: at any shape. -/
theorem all_real {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi
      (cmpf .olt (Host.absf x) (broadcastInDim s ![] bc (constant (⟨0, ![]⟩ : Shape) .f32 0x7F800000#32)))
      (constantI ⟨0, ![]⟩ 1 1#1) h hu j = 1#1) (i : s.Idx) : ∃ r : ℝ, x i = (r : EReal) :=
  real_of_cmp (x i) (Host.reduce_andi_all _ _ h hu j e i)

variable [Cert.Pre_finite_inputs.Facts]
variable (m : (ℓ : Loc Cert.KernelIdeal.nD Cert.KernelIdeal.τ Cert.KernelIdeal.sig) → Buf (Elt Ideal) ℓ)

/-- THE PRECONDITION DECODED: the printed predicate is a left-nested conjunction of eleven "all finite" tests, one per
    float argument; each gives that every entry of its array is real. -/
theorem real_all (h : Cert.Pre_KernelIdeal m) (c : Dev Cert.KernelIdeal.nD) :
    (∀ i : Cert.KernelIdeal.S100000x128.Idx, ∃ r : ℝ, m ((c.tc : Thread Cert.KernelIdeal.nD Cert.KernelIdeal.τ).loc Cert.KernelIdeal.main_arg0) i = (r : EReal))
      ∧ (∀ i : Cert.KernelIdeal.S128x128.Idx, ∃ r : ℝ, m ((c.tc : Thread Cert.KernelIdeal.nD Cert.KernelIdeal.τ).loc Cert.KernelIdeal.main_arg5) i = (r : EReal))
      ∧ (∀ i : Cert.KernelIdeal.S128x128.Idx, ∃ r : ℝ, m ((c.tc : Thread Cert.KernelIdeal.nD Cert.KernelIdeal.τ).loc Cert.KernelIdeal.main_arg6) i = (r : EReal))
      ∧ (∀ i : Cert.KernelIdeal.S128.Idx, ∃ r : ℝ, m ((c.tc : Thread Cert.KernelIdeal.nD Cert.KernelIdeal.τ).loc Cert.KernelIdeal.main_arg7) i = (r : EReal))
      ∧ (∀ i : Cert.KernelIdeal.S128x64.Idx, ∃ r : ℝ, m ((c.tc : Thread Cert.KernelIdeal.nD Cert.KernelIdeal.τ).loc Cert.KernelIdeal.main_arg8) i = (r : EReal))
      ∧ (∀ i : Cert.KernelIdeal.S128x64.Idx, ∃ r : ℝ, m ((c.tc : Thread Cert.KernelIdeal.nD Cert.KernelIdeal.τ).loc Cert.KernelIdeal.main_arg9) i = (r : EReal))
      ∧ (∀ i : Cert.KernelIdeal.S64.Idx, ∃ r : ℝ, m ((c.tc : Thread Cert.KernelIdeal.nD Cert.KernelIdeal.τ).loc Cert.KernelIdeal.main_arg10) i = (r : EReal))
      ∧ (∀ i : Cert.KernelIdeal.S128x128.Idx, ∃ r : ℝ, m ((c.tc : Thread Cert.KernelIdeal.nD Cert.KernelIdeal.τ).loc Cert.KernelIdeal.main_arg11) i = (r : EReal))
      ∧ (∀ i : Cert.KernelIdeal.S128.Idx, ∃ r : ℝ, m ((c.tc : Thread Cert.KernelIdeal.nD Cert.KernelIdeal.τ).loc Cert.KernelIdeal.main_arg12) i = (r : EReal))
      ∧ (∀ i : Cert.KernelIdeal.S128x1.Idx, ∃ r : ℝ, m ((c.tc : Thread Cert.KernelIdeal.nD Cert.KernelIdeal.τ).loc Cert.KernelIdeal.main_arg13) i = (r : EReal))
      ∧ (∀ i : Cert.KernelIdeal.S1.Idx, ∃ r : ℝ, m ((c.tc : Thread Cert.KernelIdeal.nD Cert.KernelIdeal.τ).loc Cert.KernelIdeal.main_arg14) i = (r : EReal)) := by
  have e := congrFun (h c) ValueIdx.ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨e0, e5⟩, e6⟩, e7⟩, e8⟩, e9⟩, e10⟩, e11⟩, e12⟩, e13⟩, e14⟩ := e
  exact ⟨all_real _ _ _ _ _ e0, all_real _ _ _ _ _ e5, all_real _ _ _ _ _ e6, all_real _ _ _ _ _ e7, all_real _ _ _ _ _ e8, all_real _ _ _ _ _ e9, all_real _ _ _ _ _ e10, all_real _ _ _ _ _ e11, all_real _ _ _ _ _ e12, all_real _ _ _ _ _ e13, all_real _ _ _ _ _ e14⟩

/-- Every entry of float argument 0 is a real number. -/
theorem real_arg0 (h : Cert.Pre_KernelIdeal m) (c : Dev Cert.KernelIdeal.nD) (i : Cert.KernelIdeal.S100000x128.Idx) :
    ∃ r : ℝ, m ((c.tc : Thread Cert.KernelIdeal.nD Cert.KernelIdeal.τ).loc Cert.KernelIdeal.main_arg0) i = (r : EReal) :=
  (real_all m h c).1 i

/-- Every entry of float argument 5 is a real number. -/
theorem real_arg5 (h : Cert.Pre_KernelIdeal m) (c : Dev Cert.KernelIdeal.nD) (i : Cert.KernelIdeal.S128x128.Idx) :
    ∃ r : ℝ, m ((c.tc : Thread Cert.KernelIdeal.nD Cert.KernelIdeal.τ).loc Cert.KernelIdeal.main_arg5) i = (r : EReal) :=
  (real_all m h c).2.1 i

/-- Every entry of float argument 6 is a real number. -/
theorem real_arg6 (h : Cert.Pre_KernelIdeal m) (c : Dev Cert.KernelIdeal.nD) (i : Cert.KernelIdeal.S128x128.Idx) :
    ∃ r : ℝ, m ((c.tc : Thread Cert.KernelIdeal.nD Cert.KernelIdeal.τ).loc Cert.KernelIdeal.main_arg6) i = (r : EReal) :=
  (real_all m h c).2.2.1 i

/-- Every entry of float argument 7 is a real number. -/
theorem real_arg7 (h : Cert.Pre_KernelIdeal m) (c : Dev Cert.KernelIdeal.nD) (i : Cert.KernelIdeal.S128.Idx) :
    ∃ r : ℝ, m ((c.tc : Thread Cert.KernelIdeal.nD Cert.KernelIdeal.τ).loc Cert.KernelIdeal.main_arg7) i = (r : EReal) :=
  (real_all m h c).2.2.2.1 i

/-- Every entry of float argument 8 is a real number. -/
theorem real_arg8 (h : Cert.Pre_KernelIdeal m) (c : Dev Cert.KernelIdeal.nD) (i : Cert.KernelIdeal.S128x64.Idx) :
    ∃ r : ℝ, m ((c.tc : Thread Cert.KernelIdeal.nD Cert.KernelIdeal.τ).loc Cert.KernelIdeal.main_arg8) i = (r : EReal) :=
  (real_all m h c).2.2.2.2.1 i

/-- Every entry of float argument 9 is a real number. -/
theorem real_arg9 (h : Cert.Pre_KernelIdeal m) (c : Dev Cert.KernelIdeal.nD) (i : Cert.KernelIdeal.S128x64.Idx) :
    ∃ r : ℝ, m ((c.tc : Thread Cert.KernelIdeal.nD Cert.KernelIdeal.τ).loc Cert.KernelIdeal.main_arg9) i = (r : EReal) :=
  (real_all m h c).2.2.2.2.2.1 i

/-- Every entry of float argument 10 is a real number. -/
theorem real_arg10 (h : Cert.Pre_KernelIdeal m) (c : Dev Cert.KernelIdeal.nD) (i : Cert.KernelIdeal.S64.Idx) :
    ∃ r : ℝ, m ((c.tc : Thread Cert.KernelIdeal.nD Cert.KernelIdeal.τ).loc Cert.KernelIdeal.main_arg10) i = (r : EReal) :=
  (real_all m h c).2.2.2.2.2.2.1 i

/-- Every entry of float argument 11 is a real number. -/
theorem real_arg11 (h : Cert.Pre_KernelIdeal m) (c : Dev Cert.KernelIdeal.nD) (i : Cert.KernelIdeal.S128x128.Idx) :
    ∃ r : ℝ, m ((c.tc : Thread Cert.KernelIdeal.nD Cert.KernelIdeal.τ).loc Cert.KernelIdeal.main_arg11) i = (r : EReal) :=
  (real_all m h c).2.2.2.2.2.2.2.1 i

/-- Every entry of float argument 12 is a real number. -/
theorem real_arg12 (h : Cert.Pre_KernelIdeal m) (c : Dev Cert.KernelIdeal.nD) (i : Cert.KernelIdeal.S128.Idx) :
    ∃ r : ℝ, m ((c.tc : Thread Cert.KernelIdeal.nD Cert.KernelIdeal.τ).loc Cert.KernelIdeal.main_arg12) i = (r : EReal) :=
  (real_all m h c).2.2.2.2.2.2.2.2.1 i

/-- Every entry of float argument 13 is a real number. -/
theorem real_arg13 (h : Cert.Pre_KernelIdeal m) (c : Dev Cert.KernelIdeal.nD) (i : Cert.KernelIdeal.S128x1.Idx) :
    ∃ r : ℝ, m ((c.tc : Thread Cert.KernelIdeal.nD Cert.KernelIdeal.τ).loc Cert.KernelIdeal.main_arg13) i = (r : EReal) :=
  (real_all m h c).2.2.2.2.2.2.2.2.2.1 i

/-- Every entry of float argument 14 is a real number. -/
theorem real_arg14 (h : Cert.Pre_KernelIdeal m) (c : Dev Cert.KernelIdeal.nD) (i : Cert.KernelIdeal.S1.Idx) :
    ∃ r : ℝ, m ((c.tc : Thread Cert.KernelIdeal.nD Cert.KernelIdeal.τ).loc Cert.KernelIdeal.main_arg14) i = (r : EReal) :=
  (real_all m h c).2.2.2.2.2.2.2.2.2.2 i

end Cert.Finite

end
-- ==== Proof.LibRowTable.lean ====
/-
  Gathers and accumulating scatters along the ROW axis of an array, driven by an `[E, 1]` table of row numbers —
  what `x[rows]` and `segment_sum(·, rows)` lower to — read at an index, for a vector `[N]` and for a matrix `[N, C]`
  whose rows move whole. Any extents and any index width.

  * A gather reads, at entry `e`, the operand's row number `min (table e) (N - 1)`, the table word read as a signed
    integer and negative words clamped to row 0 (`Int.toNat`). For the matrix form the column is kept.
  * An update `e` of a scatter lands on row `n` exactly when the table word, read signed, IS `n`; a word that is
    negative or at least `N` lands nowhere. For the matrix form the column is kept.

  So the matrix forms are the vector forms applied column by column, with ONE source-row function and ONE
  landing test: this is what lets a contraction over the columns move across a gather and a scatter.
-/
import Idealize.ShloMosaic.Lib.ValueIdx
import Idealize.ShloMosaic.PureOps.Ideal

noncomputable section

namespace Cert.LibRowTable

open Idealize.ShloMosaic Idealize.ShloMosaic.ValueIdx

variable {α : Type}

/-! ## The landing test of any scatter, axis by axis -/

/-- An update lands on the operand index `i` exactly when, on every operand axis, start plus window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have h1 := congrFun (Option.some.inj heq) a
      have h2 := congrArg Fin.val h1
      have h3 := (h a).1
      simp only at h2
      omega
    · intro hall
      refine congrArg some (funext fun a => Fin.ext ?_)
      have := hall a
      simp only
      omega
  · rename_i h
    constructor
    · intro heq; exact absurd heq (by simp)
    · intro hall
      exact absurd (fun a => ⟨by rw [hall a]; exact Int.natCast_nonneg _, by rw [hall a]; exact_mod_cast (i a).isLt⟩) h

/-- An operand axis receives a window coordinate exactly when it is not an inserted axis. -/
theorem mem_scatter_sKept {s si u : Shape} (d : ScatterDims s si u) (a : Fin s.rank) : a ∈ d.sKept ↔ a ∉ d.insertedWindowDims := by
  simp [ScatterDims.sKept, Shape.kept, List.mem_filter, List.mem_finRange]

/-! ## The source row of a gather and the landing row of a scatter -/

/-- The row a gather reads for the table word `b`: the word read signed, negative words at 0, clamped to the last row. -/
def srcRow (N : Nat) (hN : 0 < N) {w : Nat} (b : BitVec w) : Fin N := ⟨min b.toInt.toNat (N - 1), by omega⟩

/-! ## A vector `[N]` gathered by an `[E, 1]` table -/

/-- The dimension numbers of `x[rows]` for a vector: the one operand axis collapsed, the table's last axis the index vector. -/
abbrev gatherVec (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the source row of table entry `(e, 0)`. -/
theorem gatherVec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVec N E wf) x idx (ix1 e) = x (ix1 (srcRow N hN (idx (ix2 e (0 : Fin 1))))) := by
  unfold Host.gather
  congr 1
  funext a
  obtain rfl : a = 0 := Subsingleton.elim _ _
  refine Fin.ext ?_
  show (gatherVec N E wf).start (ix1 e) idx 0 + (gatherVec N E wf).batchCoord (ix1 e) 0 + (gatherVec N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVec N E wf).startIndexMap from List.mem_singleton.mpr rfl)]
  have hsi : (gatherVec N E wf).siIdx (ix1 e) ⟨List.idxOf (0 : Fin 1) (gatherVec N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A matrix `[N, C]` whose rows are gathered by an `[E, 1]` table -/

/-- The dimension numbers of `x[rows]` for a matrix: the row axis collapsed, the column axis an offset axis of full width. -/
abbrev gatherRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, k)` of the gathered matrix is the operand at the source row of table entry `(e, 0)`, column `k`. -/
theorem gatherRows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRows N C E wf) x idx (ix2 e k) = x (ix2 (srcRow N hN (idx (ix2 e (0 : Fin 1)))) k) := by
  unfold Host.gather
  congr 1
  funext a
  refine Fin.ext ?_
  match a with
  | ⟨0, _⟩ =>
    show (gatherRows N C E wf).start (ix2 e k) idx 0 + (gatherRows N C E wf).batchCoord (ix2 e k) 0 + (gatherRows N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N C E wf).startIndexMap from List.mem_singleton.mpr rfl)]
    have hsi : (gatherRows N C E wf).siIdx (ix2 e k) ⟨List.idxOf (0 : Fin 2) (gatherRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows N C E wf).start (ix2 e k) idx 1 + (gatherRows N C E wf).batchCoord (ix2 e k) 1 + (gatherRows N C E wf).offCoord (ix2 e k) 1 = k.val
    rw [GatherDims.batchCoord_eq_zero _ _ _ List.not_mem_nil]
    have hs : (gatherRows N C E wf).start (ix2 e k) idx 1 = 0 := by
      unfold GatherDims.start
      rw [dif_neg (show ¬ (1 : Fin 2) ∈ ([0] : List (Fin 2)) by decide)]
    have ho : (gatherRows N C E wf).offCoord (ix2 e k) 1 = k.val := by
      unfold GatherDims.offCoord
      rw [dif_pos ((GatherDims.mem_sKept _ _).mpr ⟨(by decide : ¬ (1 : Fin 2) ∈ ([0] : List (Fin 2))), List.not_mem_nil⟩)]
      rfl
    rw [hs, ho]
    omega

/-! ## Updates `[E]` scattered into a vector `[N]` by an `[E, 1]` table -/

/-- The dimension numbers of `segment_sum` into a vector: the one operand axis inserted, no window axis. -/
abbrev scatterVec (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on row `n` exactly when table entry `(e, 0)`, read signed, is `n`. -/
theorem scatterVec_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scatterVec N E wf).resultIdx? (ix1 e) idx = some (ix1 n) ↔ (idx (ix2 e (0 : Fin 1))).toInt = (n.val : Int) := by
  rw [resultIdx?_eq_some_iff]
  have hstart : (scatterVec N E wf).start (ix1 e) idx 0 = (idx (ix2 e (0 : Fin 1))).toInt := by
    unfold ScatterDims.start
    rw [dif_pos (show (0 : Fin 1) ∈ (scatterVec N E wf).scatterDimsToOperandDims from List.mem_singleton.mpr rfl)]
    have hsi : (scatterVec N E wf).siIdx (ix1 e) ⟨List.idxOf (0 : Fin 1) (scatterVec N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin : (scatterVec N E wf).window (ix1 e) 0 = 0 := by
    unfold ScatterDims.window
    rw [dif_neg (fun h => ((mem_scatter_sKept _ _).mp h) (List.mem_singleton.mpr rfl))]
  have hn : ((ix1 n : (⟨1, ![N]⟩ : Shape).Idx) 0).val = n.val := rfl
  constructor
  · intro h
    have := h 0
    rw [hstart, hwin, hn] at this
    omega
  · intro h a
    obtain rfl : a = 0 := Subsingleton.elim _ _
    rw [hstart, hwin, hn]
    omega

/-! ## Update rows `[E, C]` scattered into a matrix `[N, C]` by an `[E, 1]` table -/

/-- The dimension numbers of `segment_sum` into a matrix: the row axis inserted, the column axis a window axis. -/
abbrev scatterRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k)` lands on `(n, k')` exactly when table entry `(e, 0)`, read signed, is `n`, and `k = k'`. -/
theorem scatterRows_lands {N C E w : Nat} (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (scatterRows N C E wf).resultIdx? (ix2 e k) idx = some (ix2 n k')
      ↔ (idx (ix2 e (0 : Fin 1))).toInt = (n.val : Int) ∧ k = k' := by
  rw [resultIdx?_eq_some_iff]
  have hstart0 : (scatterRows N C E wf).start (ix2 e k) idx 0 = (idx (ix2 e (0 : Fin 1))).toInt := by
    unfold ScatterDims.start
    rw [dif_pos (show (0 : Fin 2) ∈ (scatterRows N C E wf).scatterDimsToOperandDims from List.mem_singleton.mpr rfl)]
    have hsi : (scatterRows N C E wf).siIdx (ix2 e k) ⟨List.idxOf (0 : Fin 2) (scatterRows N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin0 : (scatterRows N C E wf).window (ix2 e k) 0 = 0 := by
    unfold ScatterDims.window
    rw [dif_neg (fun h => ((mem_scatter_sKept _ _).mp h) (List.mem_singleton.mpr rfl))]
  have hstart1 : (scatterRows N C E wf).start (ix2 e k) idx 1 = 0 := by
    unfold ScatterDims.start
    rw [dif_neg (show ¬ (1 : Fin 2) ∈ ([0] : List (Fin 2)) by decide)]
  have hwin1 : (scatterRows N C E wf).window (ix2 e k) 1 = k.val := by
    unfold ScatterDims.window
    rw [dif_pos ((mem_scatter_sKept _ _).mpr (by decide : ¬ (1 : Fin 2) ∈ ([0] : List (Fin 2))))]
    rfl
  have hn0 : ((ix2 n k' : (⟨2, ![N, C]⟩ : Shape).Idx) 0).val = n.val := rfl
  have hn1 : ((ix2 n k' : (⟨2, ![N, C]⟩ : Shape).Idx) 1).val = k'.val := rfl
  constructor
  · intro h
    have h0 := h 0
    have h1 := h 1
    rw [hstart0, hwin0, hn0] at h0
    rw [hstart1, hwin1, hn1] at h1
    exact ⟨by omega, Fin.ext (by omega)⟩
  · rintro ⟨h, rfl⟩ a
    match a with
    | ⟨0, _⟩ =>
      show (scatterRows N C E wf).start (ix2 e k) idx 0 + ((scatterRows N C E wf).window (ix2 e k) 0 : Int) = (((ix2 n k : (⟨2, ![N, C]⟩ : Shape).Idx) 0).val : Int)
      rw [hstart0, hwin0, hn0]
      omega
    | ⟨1, _⟩ =>
      show (scatterRows N C E wf).start (ix2 e k) idx 1 + ((scatterRows N C E wf).window (ix2 e k) 1 : Int) = (((ix2 n k : (⟨2, ![N, C]⟩ : Shape).Idx) 1).val : Int)
      rw [hstart1, hwin1, hn1]
      omega

end Cert.LibRowTable

end
-- ==== Proof.LibLanding.lean ====
/-
  The set of updates of an accumulating scatter that land on a given operand entry, named once.

  The exact scatter on the extended reals is "the operand's entry plus the sum of the updates whose result index is
  that entry". The set is stated here for ANY shapes and dimension record, so that it is spelt exactly as in the
  operation's definition; statements about a particular scatter then speak of landing d idx i and of membership in
  it, and never spell the set again at their own shapes.
-/
import Idealize.ShloMosaic.PureOps.Ideal

noncomputable section

namespace Cert.LibLanding

open Idealize.ShloMosaic
open scoped BigOperators

/-- The updates that land on the operand entry i. -/
def landing {s si su : Shape} (d : ScatterDims s si su) {w : Nat} (idx : IVec si w) (i : s.Idx) : Finset su.Idx :=
  Finset.univ.filter (fun j => d.resultIdx? j idx = some i)

/-- An update is in the set exactly when its result index is the entry. -/
theorem mem_landing {s si su : Shape} (d : ScatterDims s si su) {w : Nat} (idx : IVec si w) (i : s.Idx) (j : su.Idx) :
    j ∈ landing d idx i ↔ d.resultIdx? j idx = some i := by
  unfold landing
  rw [Finset.mem_filter]
  exact ⟨fun h => h.2, fun h => ⟨Finset.mem_univ _, h⟩⟩

/-- The exact accumulating scatter at an entry: the operand's entry plus the sum of the updates landing there. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ landing d idx i, upd j := rfl

/-- The same for the host operation at the exact instance. -/
theorem scatterAdd_apply {s si su : Shape} {φ : FTy} (d : ScatterDims s si su) {w : Nat} (x : FVec Ideal s φ) (idx : IVec si w)
    (upd : FVec Ideal su φ) (i : s.Idx) :
    Host.scatterAdd (F := Ideal) d x idx upd i = x i + ∑ j ∈ landing d idx i, upd j := rfl

end Cert.LibLanding

end
-- ==== Proof.LibSegmentSum.lean ====
/-
  A segment sum read at an entry as a sum over the edges, and the algebra that moves a projection across a mean
  aggregation. Nothing here mentions a program; any extents.

  * An accumulating scatter of update rows [E, C] into a matrix [N, C] by an [E, 1] table of row numbers is, at
    entry (n, q), the operand's entry plus the sum over the edges e of the update (e, q) when the table word of e,
    read signed, is n, and of 0 otherwise: an update (e, k) lands on (n, q) exactly when the word is n and k = q, so
    of the double sum over (e, k) only the column k = q is left. The same for updates [E] into a vector [N].
  * For real numbers h e k, w k, d (as extended reals) and a test P on the edges,
      sum_k ((sum_{e : P e} h e k) * d) * w k = (sum_{e : P e} sum_k h e k * w k) * d :
    both sides are the coercion of one real number, and the real identity is an exchange of two finite sums and
    commutativity. It is stated with an added z = 0 in front of each aggregate (the entry the aggregate starts
    from), and also for extended reals that are only known to be real.
  * The two together, in the spelling of the operations: with P = H * Wp (a contraction over the columns of H),
    "gather the rows of P by a table, sum them into segments by another table, scale by d" is, entry by entry, the
    projection by Wp of "gather the rows of H, sum them into segments, scale by d", when H, Wp and d are real.
-/
import Idealize.ShloMosaic.PureOps.Ideal
import Idealize.ShloMosaic.Lib.ValueIdx
import proofs.«112630_j80642305949836_2_alg».proof.Proof.LibRowTable
import proofs.«112630_j80642305949836_2_alg».proof.Proof.LibLanding

noncomputable section

namespace Cert.LibSegmentSum

open Idealize.ShloMosaic Idealize.ShloMosaic.ValueIdx
open Cert.LibRowTable Cert.LibLanding
open scoped BigOperators

/-! ## A segment sum at an entry -/

/-- A rank-1 index set is its coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update rows [E, C] scattered with accumulation into a matrix [N, C]: entry (n, q) is the operand's entry plus
    the sum over the edges whose table word, read signed, is n, of the update's column q. -/
theorem scatterRows_sum {N C E w : Nat} (wf : ScatterDims.WF ⟨2, ![N, C]⟩ ⟨2, ![E, 1]⟩ ⟨2, ![E, C]⟩ [1] [0] [0] 1)
    {φ : FTy} (x : FVec Ideal ⟨2, ![N, C]⟩ φ) (idx : IVec ⟨2, ![E, 1]⟩ w) (u : FVec Ideal ⟨2, ![E, C]⟩ φ)
    (n : Fin N) (q : Fin C) :
    Host.scatterAdd (F := Ideal) (scatterRows N C E wf) x idx u (ix2 n q)
      = x (ix2 n q) + ∑ e : Fin E, if (idx (ix2 e (0 : Fin 1))).toInt = (n.val : Int) then u (ix2 e q) else 0 := by
  rw [scatterAdd_apply]
  congr 1
  unfold landing
  rw [Finset.sum_filter, sum_idx2]
  refine Finset.sum_congr rfl fun e _ => ?_
  simp only [scatterRows_lands]
  by_cases h : (idx (ix2 e (0 : Fin 1))).toInt = (n.val : Int)
  · simp only [h, true_and, if_true]
    rw [Finset.sum_ite_eq' Finset.univ q (fun k => u (ix2 e k))]
    simp
  · simp [h]

/-- Updates [E] scattered with accumulation into a vector [N]: entry n is the operand's entry plus the sum of the
    updates of the edges whose table word, read signed, is n. -/
theorem scatterVec_sum {N E w : Nat} (wf : ScatterDims.WF ⟨1, ![N]⟩ ⟨2, ![E, 1]⟩ ⟨1, ![E]⟩ [] [0] [0] 1)
    {φ : FTy} (x : FVec Ideal ⟨1, ![N]⟩ φ) (idx : IVec ⟨2, ![E, 1]⟩ w) (u : FVec Ideal ⟨1, ![E]⟩ φ) (n : Fin N) :
    Host.scatterAdd (F := Ideal) (scatterVec N E wf) x idx u (ix1 n)
      = x (ix1 n) + ∑ e : Fin E, if (idx (ix2 e (0 : Fin 1))).toInt = (n.val : Int) then u (ix1 e) else 0 := by
  rw [scatterAdd_apply]
  congr 1
  unfold landing
  rw [Finset.sum_filter, sum_idx1]
  refine Finset.sum_congr rfl fun e _ => ?_
  simp only [scatterVec_lands]

/-! ## A projection moved across a mean aggregation -/

/-- A finite sum of real numbers, coerced, is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice between a coerced real and 0 is the coercion of the choice. -/
theorem ite_coe (p : Prop) [Decidable p] (a : ℝ) : (if p then (a : EReal) else 0) = ((if p then a else 0 : ℝ) : EReal) := by
  split_ifs <;> simp

/-- The real identity: the weighted sum over k of the scaled aggregate is the scaled aggregate of the weighted sums. -/
theorem project_mean_real {E K : Type*} [Fintype E] [Fintype K] (P : E → Prop) [DecidablePred P] (h : E → K → ℝ)
    (w : K → ℝ) (d : ℝ) :
    ∑ k : K, ((∑ e : E, if P e then h e k else 0) * d) * w k
      = (∑ e : E, if P e then (∑ k : K, h e k * w k) else 0) * d := by
  simp only [Finset.sum_mul]
  rw [Finset.sum_comm]
  refine Finset.sum_congr rfl fun e _ => ?_
  by_cases hp : P e
  · simp only [hp, if_true, Finset.sum_mul]
    exact Finset.sum_congr rfl fun k _ => by ring
  · simp [hp]

/-- The same on real numbers inside the extended reals, each aggregate started from an entry z that is 0. -/
theorem project_mean {E K : Type*} [Fintype E] [Fintype K] (P : E → Prop) [DecidablePred P] (h : E → K → ℝ)
    (w : K → ℝ) (d : ℝ) (z : EReal) (hz : z = 0) :
    ∑ k : K, ((z + ∑ e : E, if P e then ((h e k : ℝ) : EReal) else 0) * (d : EReal)) * ((w k : ℝ) : EReal)
      = (z + ∑ e : E, if P e then (∑ k : K, ((h e k : ℝ) : EReal) * ((w k : ℝ) : EReal)) else 0) * (d : EReal) := by
  subst hz
  simp only [zero_add, ← EReal.coe_mul, ← coe_sum, ite_coe]
  rw [project_mean_real P h w d]

/-- The same for extended reals that are only known to be real. -/
theorem project_mean' {E K : Type*} [Fintype E] [Fintype K] (P : E → Prop) [DecidablePred P] (H : E → K → EReal)
    (W : K → EReal) (D : EReal) (z : EReal) (hH : ∀ e k, ∃ r : ℝ, H e k = (r : EReal)) (hW : ∀ k, ∃ r : ℝ, W k = (r : EReal))
    (hD : ∃ r : ℝ, D = (r : EReal)) (hz : z = 0) :
    ∑ k : K, ((z + ∑ e : E, if P e then H e k else 0) * D) * W k
      = (z + ∑ e : E, if P e then (∑ k : K, H e k * W k) else 0) * D := by
  choose h hh using hH
  choose w hw using hW
  obtain ⟨d, rfl⟩ := hD
  obtain rfl : H = fun e k => ((h e k : ℝ) : EReal) := funext fun e => funext fun k => hh e k
  obtain rfl : W = fun k => ((w k : ℝ) : EReal) := funext hw
  exact project_mean P h w d z hz

/-! ## The law in its operational spelling -/

/-- Gather the rows of a projected matrix P = H * Wp by one table, sum them into segments by another, and scale by d:
    entry (n, q) is the projection by Wp of "gather the rows of H, sum them into segments, scale by d" at row n.
    The entries of H and Wp and the scale d are real; both segment sums start from arrays of zeros. -/
theorem mean_project {N E K C w : Nat} (hN : 0 < N)
    (wfgK : GatherDims.WF ⟨2, ![N, K]⟩ ⟨2, ![E, 1]⟩ ⟨2, ![E, K]⟩ [1] [0] [] [0] [] 1 ![1, K])
    (wfgC : GatherDims.WF ⟨2, ![N, C]⟩ ⟨2, ![E, 1]⟩ ⟨2, ![E, C]⟩ [1] [0] [] [0] [] 1 ![1, C])
    (wfsK : ScatterDims.WF ⟨2, ![N, K]⟩ ⟨2, ![E, 1]⟩ ⟨2, ![E, K]⟩ [1] [0] [0] 1)
    (wfsC : ScatterDims.WF ⟨2, ![N, C]⟩ ⟨2, ![E, 1]⟩ ⟨2, ![E, C]⟩ [1] [0] [0] 1)
    {φ : FTy} (H : FVec Ideal ⟨2, ![N, K]⟩ φ) (P : FVec Ideal ⟨2, ![N, C]⟩ φ) (Wp : (⟨2, ![K, C]⟩ : Shape).Idx → EReal)
    (hP : ∀ (n : Fin N) (q : Fin C), P (ix2 n q) = ∑ k : Fin K, H (ix2 n k) * Wp (ix2 k q))
    (ZK : FVec Ideal ⟨2, ![N, K]⟩ φ) (ZC : FVec Ideal ⟨2, ![N, C]⟩ φ) (hZK : ∀ i, ZK i = 0) (hZC : ∀ i, ZC i = 0)
    (tS tD : IVec ⟨2, ![E, 1]⟩ w) (d : EReal)
    (hH : ∀ i, ∃ r : ℝ, H i = (r : EReal)) (hW : ∀ i, ∃ r : ℝ, Wp i = (r : EReal)) (hd : ∃ r : ℝ, d = (r : EReal))
    (n : Fin N) (q : Fin C) :
    Host.scatterAdd (F := Ideal) (scatterRows N C E wfsC) ZC tD (Host.gather (gatherRows N C E wfgC) P tS) (ix2 n q) * d
      = ∑ k : Fin K, (Host.scatterAdd (F := Ideal) (scatterRows N K E wfsK) ZK tD
          (Host.gather (gatherRows N K E wfgK) H tS) (ix2 n k) * d) * Wp (ix2 k q) := by
  simp only [scatterRows_sum, gatherRows_apply hN, hP, hZK, hZC]
  exact (project_mean' (fun e : Fin E => (tD (ix2 e (0 : Fin 1))).toInt = (n.val : Int))
    (fun e k => H (ix2 (srcRow N hN (tS (ix2 e (0 : Fin 1)))) k)) (fun k => Wp (ix2 k q)) d 0
    (fun e k => hH _) (fun k => hW _) hd rfl).symm

end Cert.LibSegmentSum

end
-- ==== Proof.LibRealArrays.lean ====
/-
  GENERAL lemmas: "real entries in, real entries out" for host operations on arrays of extended reals (the exact
  operations), at any shapes and dimension records.

  * A gather only selects: every element of the result is an element of the operand.
  * An accumulating scatter: each element of the result is the operand's element plus a finite sum of update
    elements.
  * A host sum: each element of the result is the initial value plus a finite sum of operand elements.
  * A contraction (host product, or matrix product onto an accumulator): a finite sum of products (plus the
    accumulator's element).
  Finite sums and products of reals are reals.
-/
import proofs.«112630_j80642305949836_2_alg».proof.Proof.LibMoments
import Idealize.ShloMosaic.PureOps.Ideal
import Idealize.ShloMosaic.PureOps.Ideal.Laws

noncomputable section

namespace Cert.LibMoments

open Idealize.ShloMosaic
open scoped BigOperators

/-- Every element of a gather is an element of the operand. -/
theorem isR_gather {s si t : Shape} (d : GatherDims s si t) (x : s.Idx → EReal) (hx : ∀ i, IsR (x i)) {w : Nat}
    (idx : IVec si w) (j : t.Idx) : IsR (Host.gather d x idx j) :=
  hx _

/-- An accumulating scatter of reals into reals gives reals: the operand's element plus a finite sum of updates. -/
theorem isR_scatterAdd {s si su : Shape} {φ : FTy} (d : ScatterDims s si su) (x : FVec Ideal s φ) (hx : ∀ i, IsR (x i))
    {w : Nat} (idx : IVec si w) (u : FVec Ideal su φ) (hu : ∀ j, IsR (u j)) (i : s.Idx) :
    IsR (Host.scatterAdd (F := Ideal) d x idx u i) := by
  show IsR (Ideal.hostScatterAdd d x idx u i)
  unfold Ideal.hostScatterAdd
  exact (hx i).add (IsR.finset_sum _ _ fun j _ => hu j)

/-- The same at any schedule key. -/
theorem isR_scatterAddAt (sched : HostSchedule) {s si su : Shape} {φ : FTy} (d : ScatterDims s si su) (x : FVec Ideal s φ)
    (hx : ∀ i, IsR (x i)) {w : Nat} (idx : IVec si w) (u : FVec Ideal su φ) (hu : ∀ j, IsR (u j)) (i : s.Idx) :
    IsR (Host.scatterAddAt (F := Ideal) sched d x idx u i) := by
  show IsR (Ideal.hostScatterAdd d x idx u i)
  unfold Ideal.hostScatterAdd
  exact (hx i).add (IsR.finset_sum _ _ fun j _ => hu j)

/-- A host sum of reals from a real initial value gives reals. -/
theorem isR_reduceAdd {s t u : Shape} {φ : FTy} {axes : List (Fin s.rank)} (x : FVec Ideal s φ) (hx : ∀ i, IsR (x i))
    (init : u.Idx → Ideal φ) (hinit : ∀ k, IsR (init k)) (h : s.ReducesTo axes t) (hu : 0 < u.numel) (j : t.Idx) :
    IsR (Host.reduceAdd (F := Ideal) x init h hu j) := by
  show IsR (Ideal.hostReduceAdd h x (init (Shape.Idx.first hu)) j)
  unfold Ideal.hostReduceAdd
  exact (hinit _).add (IsR.finset_sum _ _ fun i _ => hx i)

/-- A host product of arrays of reals is an array of reals. -/
theorem isR_dotGeneral {sl sr so : Shape} {φ₁ φ₂ : FTy} (d : DotDims sl sr so) (prec : Option ContractPrecision)
    (sched : HostSchedule) (lhs : FVec Ideal sl φ₁) (hl : ∀ i, IsR (lhs i)) (rhs : FVec Ideal sr φ₂) (hr : ∀ i, IsR (rhs i))
    (j : so.Idx) : IsR (FloatOps.dotGeneral d prec sched lhs rhs j) := by
  rw [Ideal.dotGeneral_apply]
  exact IsR.sum _ fun k => (hl _).mul (hr _)

/-- A matrix product of arrays of reals onto an accumulator of reals is an array of reals. -/
theorem isR_matmul {sl sr so : Shape} {φ₁ φ₂ : FTy} (d : DotDims sl sr so) (prec : Option ContractPrecision)
    (lhs : FVec Ideal sl φ₁) (hl : ∀ i, IsR (lhs i)) (rhs : FVec Ideal sr φ₂) (hr : ∀ i, IsR (rhs i))
    (acc : FVec Ideal so .f32) (hacc : ∀ j, IsR (acc j)) (j : so.Idx) : IsR (FloatOps.matmul d prec lhs rhs acc j) := by
  rw [Ideal.matmul_apply]
  exact (hacc j).add (IsR.sum _ fun k => (hl _).mul (hr _))

end Cert.LibMoments

end
-- ==== Proof.RefReal.lean ====
/-
  Real entries of three intermediate arrays of the reference program, at the exact instance (floats as extended
  reals), read off its operations one stage at a time.

  * The inverse clamped in-degree 1 / max(deg, 1): deg is an array of zeros plus an accumulating scatter of ones,
    so it is real whatever the table of row numbers is; max(deg, 1) is real and at least 1, so not 0; a quotient of
    reals by a real that is not 0 is real; a broadcast only selects entries of its operand.
  * The mean-aggregated features: a gather selects entries of the feature matrix, an accumulating scatter of reals
    into zeros is real, and a product of reals is real: real when the features are.
  * The first hidden layer: contractions of real matrices are finite sums of products of reals, sums of reals are
    real, a broadcast bias selects entries of the bias, and the maximum with an array of zeros is real.
-/
import proofs.«112630_j80642305949836_2_alg».proof.Proof.Gen.ReferenceIdeal.Read
import proofs.«112630_j80642305949836_2_alg».proof.Proof.LibMoments
import proofs.«112630_j80642305949836_2_alg».proof.Proof.LibRealArrays

noncomputable section

namespace Cert.RefReal

open Cert.ReferenceIdeal Cert.ReferenceIdeal.Read Cert.LibMoments Idealize.ShloMosaic
open scoped BigOperators

/-- A broadcast only selects: every entry of the result is an entry of the operand. -/
theorem isR_broadcastInDim {s t : Shape} (dims : Fin s.rank → Fin t.rank) (h : s.BroadcastsInDim t dims) (x : s.Idx → EReal)
    (hx : ∀ i, IsR (x i)) (j : t.Idx) : IsR (broadcastInDim t dims h x j) :=
  hx _

/-! ## The literals -/

theorem cst_eq (i : S_.Idx) : val_main_cst (F := Ideal) i = 1 := ofBits_one
theorem cst_0_eq (i : S_.Idx) : val_main_cst_0 (F := Ideal) i = 0 := ofBits_zero
theorem cst_1_eq (i : S_.Idx) : val_main_cst_1 (F := Ideal) i = 1 := ofBits_one
theorem cst_2_eq (i : S_.Idx) : val_main_cst_2 (F := Ideal) i = 1 := ofBits_one
theorem cst_4_eq (i : S_.Idx) : val_main_cst_4 (F := Ideal) i = 0 := ofBits_zero
theorem call0_cst_eq (i : S_.Idx) : val_main_call0_cst (F := Ideal) i = 0 := ofBits_zero

/-! ## The inverse clamped in-degree -/

/-- The updates of the degree count are ones. -/
theorem v0_eq (i : S1600000.Idx) : val_main_v0 (F := Ideal) i = 1 := by rw [val_main_v0_apply, cst_eq]
/-- The degree count starts from zeros. -/
theorem v1_eq (i : S100000.Idx) : val_main_v1 (F := Ideal) i = 0 := by rw [val_main_v1_apply, cst_0_eq]
theorem v4_eq (i : S100000.Idx) : val_main_v4 (F := Ideal) i = 1 := by rw [val_main_v4_apply, cst_1_eq]
theorem v6_eq (i : S100000.Idx) : val_main_v6 (F := Ideal) i = 1 := by rw [val_main_v6_apply, cst_2_eq]

/-- The in-degree is real whatever the table is: zeros plus a finite sum of ones. -/
theorem isR_v3 (x2 : (⟨S1600000, .i32⟩ : BufTy).Contents (Elt Ideal)) (i : S100000.Idx) : IsR (val_main_v3 (F := Ideal) x2 i) := by
  unfold val_main_v3
  exact isR_scatterAdd _ _ (fun i => by rw [v1_eq]; exact IsR_zero) _ _ (fun j => by rw [v0_eq]; exact IsR_one) i

/-- The clamped in-degree is max(deg, 1). -/
theorem v5_eq (x2 : (⟨S1600000, .i32⟩ : BufTy).Contents (Elt Ideal)) (i : S100000.Idx) : val_main_v5 (F := Ideal) x2 i = max (val_main_v3 (F := Ideal) x2 i) 1 := by
  rw [val_main_v5_apply, Ideal.maximumf_def, v4_eq]

/-- Its inverse is real. -/
theorem isR_v7 (x2 : (⟨S1600000, .i32⟩ : BufTy).Contents (Elt Ideal)) (i : S100000.Idx) : IsR (val_main_v7 (F := Ideal) x2 i) := by
  rw [val_main_v7_apply, Ideal.hostDivf_def, v6_eq, v5_eq]
  exact IsR_one.div_real _ (isR_max_one (isR_v3 x2 i)) (max_one_ne_zero _)

theorem isR_v8 (x2 : (⟨S1600000, .i32⟩ : BufTy).Contents (Elt Ideal)) (i : S100000x1.Idx) : IsR (val_main_v8 (F := Ideal) x2 i) := by
  rw [val_main_v8_apply]; exact isR_v7 x2 _

/-- The inverse clamped in-degree is real whatever the table is. -/
theorem real_v8 (x2 : (⟨S1600000, .i32⟩ : BufTy).Contents (Elt Ideal)) (i : S100000x1.Idx) : ∃ r : ℝ, val_main_v8 (F := Ideal) x2 i = (r : EReal) :=
  isR_v8 x2 i

/-! ## The mean-aggregated features -/

/-- The gathered feature rows are entries of the feature matrix. -/
theorem isR_v15 (x0 : (⟨S100000x128, .f32⟩ : BufTy).Contents (Elt Ideal)) (x1 : (⟨S1600000, .i32⟩ : BufTy).Contents (Elt Ideal)) (h0 : ∀ i : S100000x128.Idx, ∃ r : ℝ, x0 i = (r : EReal)) (i : S1600000x128.Idx) : IsR (val_main_v15 (F := Ideal) x0 x1 i) := by
  unfold val_main_v15
  exact isR_gather _ _ h0 _ i

theorem v16_eq (i : S100000x128.Idx) : val_main_v16 (F := Ideal) i = 0 := by rw [val_main_v16_apply, cst_4_eq]

/-- Their segment sums are real. -/
theorem isR_v18 (x0 : (⟨S100000x128, .f32⟩ : BufTy).Contents (Elt Ideal)) (x1 x2 : (⟨S1600000, .i32⟩ : BufTy).Contents (Elt Ideal)) (h0 : ∀ i : S100000x128.Idx, ∃ r : ℝ, x0 i = (r : EReal)) (i : S100000x128.Idx) : IsR (val_main_v18 (F := Ideal) x0 x1 x2 i) := by
  unfold val_main_v18
  exact isR_scatterAdd _ _ (fun i => by rw [v16_eq]; exact IsR_zero) _ _ (isR_v15 x0 x1 h0) i

theorem isR_v19 (x2 : (⟨S1600000, .i32⟩ : BufTy).Contents (Elt Ideal)) (i : S100000x128.Idx) : IsR (val_main_v19 (F := Ideal) x2 i) := by
  rw [val_main_v19_apply]; exact isR_v8 x2 _

theorem isR_v20 (x0 : (⟨S100000x128, .f32⟩ : BufTy).Contents (Elt Ideal)) (x1 x2 : (⟨S1600000, .i32⟩ : BufTy).Contents (Elt Ideal)) (h0 : ∀ i : S100000x128.Idx, ∃ r : ℝ, x0 i = (r : EReal)) (i : S100000x128.Idx) : IsR (val_main_v20 (F := Ideal) x0 x1 x2 i) := by
  rw [val_main_v20_apply, Ideal.mulf_def]
  exact (isR_v18 x0 x1 x2 h0 i).mul (isR_v19 x2 i)

/-- The mean-aggregated features are real when the features are. -/
theorem real_v20 (x0 : (⟨S100000x128, .f32⟩ : BufTy).Contents (Elt Ideal)) (x1 x2 : (⟨S1600000, .i32⟩ : BufTy).Contents (Elt Ideal)) (h0 : ∀ i : S100000x128.Idx, ∃ r : ℝ, x0 i = (r : EReal)) (i : S100000x128.Idx) :
    ∃ r : ℝ, val_main_v20 (F := Ideal) x0 x1 x2 i = (r : EReal) :=
  isR_v20 x0 x1 x2 h0 i

/-! ## The first hidden layer -/

theorem isR_v21 (x0 : (⟨S100000x128, .f32⟩ : BufTy).Contents (Elt Ideal)) (x5 : (⟨S128x128, .f32⟩ : BufTy).Contents (Elt Ideal)) (h0 : ∀ i : S100000x128.Idx, ∃ r : ℝ, x0 i = (r : EReal)) (h5 : ∀ i : S128x128.Idx, ∃ r : ℝ, x5 i = (r : EReal)) (i : S100000x128.Idx) : IsR (val_main_v21 (F := Ideal) x0 x5 i) := by
  unfold val_main_v21
  exact isR_dotGeneral _ _ _ _ h0 _ h5 i

theorem isR_v22 (x0 : (⟨S100000x128, .f32⟩ : BufTy).Contents (Elt Ideal)) (x1 x2 : (⟨S1600000, .i32⟩ : BufTy).Contents (Elt Ideal)) (x6 : (⟨S128x128, .f32⟩ : BufTy).Contents (Elt Ideal)) (h0 : ∀ i : S100000x128.Idx, ∃ r : ℝ, x0 i = (r : EReal)) (h6 : ∀ i : S128x128.Idx, ∃ r : ℝ, x6 i = (r : EReal)) (i : S100000x128.Idx) :
    IsR (val_main_v22 (F := Ideal) x0 x1 x2 x6 i) := by
  unfold val_main_v22
  exact isR_dotGeneral _ _ _ _ (isR_v20 x0 x1 x2 h0) _ h6 i

theorem isR_v23 (x0 : (⟨S100000x128, .f32⟩ : BufTy).Contents (Elt Ideal)) (x1 x2 : (⟨S1600000, .i32⟩ : BufTy).Contents (Elt Ideal)) (x5 x6 : (⟨S128x128, .f32⟩ : BufTy).Contents (Elt Ideal)) (h0 : ∀ i : S100000x128.Idx, ∃ r : ℝ, x0 i = (r : EReal)) (h5 : ∀ i : S128x128.Idx, ∃ r : ℝ, x5 i = (r : EReal)) (h6 : ∀ i : S128x128.Idx, ∃ r : ℝ, x6 i = (r : EReal)) (i : S100000x128.Idx) :
    IsR (val_main_v23 (F := Ideal) x0 x1 x2 x5 x6 i) := by
  rw [val_main_v23_apply, Ideal.addf_def]
  exact (isR_v21 x0 x5 h0 h5 i).add (isR_v22 x0 x1 x2 x6 h0 h6 i)

/-- The broadcast bias selects entries of the bias. -/
theorem isR_v25 (x7 : (⟨S128, .f32⟩ : BufTy).Contents (Elt Ideal)) (h7 : ∀ i : S128.Idx, ∃ r : ℝ, x7 i = (r : EReal)) (i : S100000x128.Idx) : IsR (val_main_v25 (F := Ideal) x7 i) := by
  rw [val_main_v25_apply, val_main_v24_apply]; exact h7 _

theorem isR_v26 (x0 : (⟨S100000x128, .f32⟩ : BufTy).Contents (Elt Ideal)) (x1 x2 : (⟨S1600000, .i32⟩ : BufTy).Contents (Elt Ideal)) (x5 x6 : (⟨S128x128, .f32⟩ : BufTy).Contents (Elt Ideal)) (x7 : (⟨S128, .f32⟩ : BufTy).Contents (Elt Ideal)) (h0 : ∀ i : S100000x128.Idx, ∃ r : ℝ, x0 i = (r : EReal)) (h5 : ∀ i : S128x128.Idx, ∃ r : ℝ, x5 i = (r : EReal)) (h6 : ∀ i : S128x128.Idx, ∃ r : ℝ, x6 i = (r : EReal)) (h7 : ∀ i : S128.Idx, ∃ r : ℝ, x7 i = (r : EReal)) (i : S100000x128.Idx) :
    IsR (val_main_v26 (F := Ideal) x0 x1 x2 x5 x6 x7 i) := by
  rw [val_main_v26_apply, Ideal.addf_def]
  exact (isR_v23 x0 x1 x2 x5 x6 h0 h5 h6 i).add (isR_v25 x7 h7 i)

theorem call0_v0_eq (i : S100000x128.Idx) : val_main_call0_v0 (F := Ideal) i = 0 := by
  rw [val_main_call0_v0_apply, call0_cst_eq]

/-- The first hidden layer is real when the features, the two weight matrices and the bias are. -/
theorem real_v27 (x0 : (⟨S100000x128, .f32⟩ : BufTy).Contents (Elt Ideal)) (x1 x2 : (⟨S1600000, .i32⟩ : BufTy).Contents (Elt Ideal)) (x5 x6 : (⟨S128x128, .f32⟩ : BufTy).Contents (Elt Ideal)) (x7 : (⟨S128, .f32⟩ : BufTy).Contents (Elt Ideal)) (h0 : ∀ i : S100000x128.Idx, ∃ r : ℝ, x0 i = (r : EReal)) (h5 : ∀ i : S128x128.Idx, ∃ r : ℝ, x5 i = (r : EReal)) (h6 : ∀ i : S128x128.Idx, ∃ r : ℝ, x6 i = (r : EReal)) (h7 : ∀ i : S128.Idx, ∃ r : ℝ, x7 i = (r : EReal)) (i : S100000x128.Idx) :
    ∃ r : ℝ, val_main_v27 (F := Ideal) x0 x1 x2 x5 x6 x7 i = (r : EReal) := by
  rw [val_main_v27_apply, Ideal.maximumf_def, call0_v0_eq]
  exact (isR_v26 x0 x1 x2 x5 x6 x7 h0 h5 h6 h7 i).max IsR_zero

end Cert.RefReal

end
-- ==== Proof.Agg2.lean ====
/-
  The second aggregation, projected before or after. The kernel projects the hidden features to 64 columns and then
  takes the mean over the incoming edges; the reference takes the mean of the 128-column features and projects
  afterwards. With H the hidden features (real when the inputs are), W the projection (real), and d(n) the inverse
  clamped in-degree of node n (real whatever the table is), at entry (n, q):

      (sum over the edges e into n of (H W)(src e, q)) * d(n)
        = sum_k ((sum over the edges e into n of H(src e, k)) * d(n)) * W(k, q).

  Both sides are the printed operations: a gather of rows by the source table, an accumulating scatter into zeros by
  the destination table, and a product with the broadcast column d. The four dimension records are the row gather
  and the row scatter at the extents 100000, 1600000 and 64 or 128; then the identity is the general law of moving a
  projection across a mean aggregation, whose only hypotheses are that H, W and d are real.
-/
import proofs.«112630_j80642305949836_2_alg».proof.KernelIdeal
import proofs.«112630_j80642305949836_2_alg».proof.Proof.Gen.ReferenceIdeal.Read
import proofs.«112630_j80642305949836_2_alg».proof.Proof.Spec
import proofs.«112630_j80642305949836_2_alg».proof.Proof.LibRowTable
import proofs.«112630_j80642305949836_2_alg».proof.Proof.LibLanding
import proofs.«112630_j80642305949836_2_alg».proof.Proof.LibSegmentSum
import proofs.«112630_j80642305949836_2_alg».proof.Proof.LibMoments
import proofs.«112630_j80642305949836_2_alg».proof.Proof.RefReal
import Idealize.ShloMosaic.Lib.Pipeline.Value
import Idealize.ShloMosaic.Lib.ValueIdx

noncomputable section

namespace Cert.Agg2

open Idealize.ShloMosaic Idealize.ShloMosaic.ValueIdx
open Cert.LibRowTable Cert.LibSegmentSum Cert.LibMoments
open scoped BigOperators

variable [Cert.KernelIdeal.Facts₀]

/-! ## The four records are the row gather and the row scatter -/

theorem k_scatter_eq : Cert.KernelIdeal.scatter_S100000x64_S1600000x1_S1600000x64_1_0_0_1
    = scatterRows 100000 64 1600000 Cert.KernelIdeal.Facts₀.scatter_S100000x64_S1600000x1_S1600000x64_1_0_0_1_wf := rfl

theorem k_gather_eq : Cert.KernelIdeal.gather_S100000x64_S1600000x1_S1600000x64_1_0_n_n_0_1_164
    = gatherRows 100000 64 1600000 Cert.KernelIdeal.Facts₀.gather_S100000x64_S1600000x1_S1600000x64_1_0_n_n_0_1_164_wf := rfl

theorem r_scatter_eq : Cert.ReferenceIdeal.scatter_S100000x128_S1600000x1_S1600000x128_1_0_0_1
    = scatterRows 100000 128 1600000 Cert.ReferenceIdeal.Facts₀.scatter_S100000x128_S1600000x1_S1600000x128_1_0_0_1_wf := rfl

theorem r_gather_eq : Cert.ReferenceIdeal.gather_S100000x128_S1600000x1_S1600000x128_1_0_n_n_0_1_1128
    = gatherRows 100000 128 1600000 Cert.ReferenceIdeal.Facts₀.gather_S100000x128_S1600000x1_S1600000x128_1_0_n_n_0_1_1128_wf := rfl

/-! ## The pieces at an index -/

/-- The broadcast zero word is 0 everywhere. -/
theorem bcast_zero_apply (hb0 : Cert.KernelIdeal.S_.BroadcastsInDim Cert.KernelIdeal.S100000x64 (![] : Fin 0 → Fin Cert.KernelIdeal.S100000x64.rank))
    (i : Cert.KernelIdeal.S100000x64.Idx) :
    broadcastInDim Cert.KernelIdeal.S100000x64 ![] hb0 (constant (F := Ideal) Cert.KernelIdeal.S_ .f32 0x00000000#32) i = 0 :=
  ofBits_zero

/-- A column broadcast along the rows reads, at (n, q), the column at (n, 0). -/
theorem bcast_col_apply (hb1 : Cert.KernelIdeal.S100000x1.BroadcastsInDim Cert.KernelIdeal.S100000x64 (![0, 1] : Fin 2 → Fin Cert.KernelIdeal.S100000x64.rank))
    (y : Cert.KernelIdeal.S100000x1.Idx → EReal) (n : Fin 100000) (q : Fin 64) :
    broadcastInDim Cert.KernelIdeal.S100000x64 ![0, 1] hb1 y (ix2 n q) = y (ix2 n (0 : Fin 1)) :=
  broadcastInDim_apply _ hb1 y (ix2 n q) (ix2 n (0 : Fin 1)) (fun a => match a with
    | ⟨0, _⟩ => by show n.val = if (100000 : Nat) = 1 then 0 else n.val; rw [if_neg (by decide)]
    | ⟨1, _⟩ => by show 0 = if (1 : Nat) = 1 then 0 else q.val; rw [if_pos rfl])

/-- The reference's broadcast of the same column reads the same entry. -/
theorem v38_at (x2 : (⟨Cert.ReferenceIdeal.S1600000, .i32⟩ : BufTy).Contents (Elt Ideal)) (n : Fin 100000) (k : Fin 128) :
    Cert.ReferenceIdeal.Read.val_main_v38 (F := Ideal) x2 (ix2 n k) = Cert.ReferenceIdeal.Read.val_main_v8 (F := Ideal) x2 (ix2 n (0 : Fin 1)) := by
  rw [Cert.ReferenceIdeal.Read.val_main_v38_apply]
  congr 1
  funext a
  match a with
  | ⟨0, _⟩ => rfl
  | ⟨1, _⟩ => rfl

/-- The reference's segment sum starts from zeros. -/
theorem v35_eq (i : Cert.ReferenceIdeal.S100000x128.Idx) : Cert.ReferenceIdeal.Read.val_main_v35 (F := Ideal) i = 0 := by
  rw [Cert.ReferenceIdeal.Read.val_main_v35_apply]; exact ofBits_zero

/-- The product of two matrices at an entry. -/
theorem proj_at {A B C : ℕ} (H : Cert.Spec.Mat A B) (W : Cert.Spec.Mat B C) (n : Fin A) (q : Fin C) :
    Cert.Spec.proj H W (ix2 n q) = ∑ k : Fin B, H (ix2 n k) * W (ix2 k q) := rfl

/-- The reference's mean aggregate at (n, k): the segment sum of the gathered rows times the column entry. -/
theorem v39_at (x0 : (⟨Cert.ReferenceIdeal.S100000x128, .f32⟩ : BufTy).Contents (Elt Ideal)) (x1 x2 : (⟨Cert.ReferenceIdeal.S1600000, .i32⟩ : BufTy).Contents (Elt Ideal)) (x5 x6 : (⟨Cert.ReferenceIdeal.S128x128, .f32⟩ : BufTy).Contents (Elt Ideal)) (x7 : (⟨Cert.ReferenceIdeal.S128, .f32⟩ : BufTy).Contents (Elt Ideal)) (n : Fin 100000) (k : Fin 128) :
    Cert.ReferenceIdeal.Read.val_main_v39 (F := Ideal) x0 x1 x2 x5 x6 x7 (ix2 n k)
      = Host.scatterAdd (F := Ideal) (φ := .f32) (scatterRows 100000 128 1600000 Cert.ReferenceIdeal.Facts₀.scatter_S100000x128_S1600000x1_S1600000x128_1_0_0_1_wf)
          (Cert.ReferenceIdeal.Read.val_main_v35 (F := Ideal)) (Cert.ReferenceIdeal.Read.val_main_v36 (F := Ideal) x2)
          (Host.gather (gatherRows 100000 128 1600000 Cert.ReferenceIdeal.Facts₀.gather_S100000x128_S1600000x1_S1600000x128_1_0_n_n_0_1_1128_wf)
            (Cert.ReferenceIdeal.Read.val_main_v27 (F := Ideal) x0 x1 x2 x5 x6 x7) (Cert.ReferenceIdeal.Read.val_main_v33 (F := Ideal) x1)) (ix2 n k)
        * Cert.ReferenceIdeal.Read.val_main_v8 (F := Ideal) x2 (ix2 n (0 : Fin 1)) := by
  rw [Cert.ReferenceIdeal.Read.val_main_v39_apply, Ideal.mulf_def, v38_at]
  rfl

/-! ## The identity -/

/-- Projecting before the mean aggregation is projecting after it, when the inputs are real. -/
theorem agg2 (x0 : (⟨Cert.ReferenceIdeal.S100000x128, .f32⟩ : BufTy).Contents (Elt Ideal)) (x1 x2 : (⟨Cert.ReferenceIdeal.S1600000, .i32⟩ : BufTy).Contents (Elt Ideal)) (x5 x6 : (⟨Cert.ReferenceIdeal.S128x128, .f32⟩ : BufTy).Contents (Elt Ideal)) (x7 : (⟨Cert.ReferenceIdeal.S128, .f32⟩ : BufTy).Contents (Elt Ideal)) (x9 : (⟨Cert.ReferenceIdeal.S128x64, .f32⟩ : BufTy).Contents (Elt Ideal))
    (h0 : ∀ i, ∃ r : ℝ, x0 i = (r : EReal)) (h5 : ∀ i, ∃ r : ℝ, x5 i = (r : EReal)) (h6 : ∀ i, ∃ r : ℝ, x6 i = (r : EReal))
    (h7 : ∀ i, ∃ r : ℝ, x7 i = (r : EReal)) (h9 : ∀ i, ∃ r : ℝ, x9 i = (r : EReal))
    (hb0 : Cert.KernelIdeal.S_.BroadcastsInDim Cert.KernelIdeal.S100000x64 (![] : Fin 0 → Fin Cert.KernelIdeal.S100000x64.rank))
    (hb1 : Cert.KernelIdeal.S100000x1.BroadcastsInDim Cert.KernelIdeal.S100000x64 (![0, 1] : Fin 2 → Fin Cert.KernelIdeal.S100000x64.rank)) :
    mulf (Host.scatterAdd (F := Ideal) Cert.KernelIdeal.scatter_S100000x64_S1600000x1_S1600000x64_1_0_0_1
          (broadcastInDim Cert.KernelIdeal.S100000x64 ![] hb0 (constant (F := Ideal) Cert.KernelIdeal.S_ .f32 0x00000000#32))
          (Cert.ReferenceIdeal.Read.val_main_v36 (F := Ideal) x2)
          (Host.gather Cert.KernelIdeal.gather_S100000x64_S1600000x1_S1600000x64_1_0_n_n_0_1_164
            (Cert.Spec.proj (Cert.ReferenceIdeal.Read.val_main_v27 (F := Ideal) x0 x1 x2 x5 x6 x7) x9) (Cert.ReferenceIdeal.Read.val_main_v33 (F := Ideal) x1)))
        (broadcastInDim Cert.KernelIdeal.S100000x64 ![0, 1] hb1 (Cert.ReferenceIdeal.Read.val_main_v8 (F := Ideal) x2))
      = Cert.Spec.proj (Cert.ReferenceIdeal.Read.val_main_v39 (F := Ideal) x0 x1 x2 x5 x6 x7) x9 := by
  funext i
  obtain ⟨n, q, rfl⟩ : ∃ (n : Fin 100000) (q : Fin 64), i = ix2 n q := ⟨i 0, i 1, eq_ix2 i⟩
  rw [mulf_apply, bcast_col_apply, proj_at, k_scatter_eq, k_gather_eq]
  simp only [v39_at]
  exact mean_project (by decide) _ _ _ _ (Cert.ReferenceIdeal.Read.val_main_v27 (F := Ideal) x0 x1 x2 x5 x6 x7) (Cert.Spec.proj (Cert.ReferenceIdeal.Read.val_main_v27 (F := Ideal) x0 x1 x2 x5 x6 x7) x9) x9 (fun n q => rfl)
    (Cert.ReferenceIdeal.Read.val_main_v35 (F := Ideal)) _ v35_eq (bcast_zero_apply hb0) (Cert.ReferenceIdeal.Read.val_main_v33 (F := Ideal) x1)
    (Cert.ReferenceIdeal.Read.val_main_v36 (F := Ideal) x2) (Cert.ReferenceIdeal.Read.val_main_v8 (F := Ideal) x2 (ix2 n (0 : Fin 1)))
    (Cert.RefReal.real_v27 x0 x1 x2 x5 x6 x7 h0 h5 h6 h7) h9 (Cert.RefReal.real_v8 x2 _) n q

end Cert.Agg2

end
-- ==== Proof.LibRowsLayout.lean ====
/-
  Two layout operations on arrays of extended reals, named as the matrices they are. Nothing here mentions a program;
  any extents.

  * A vector of N entries cast to the shape [1, N] is the vector laid out as a matrix of one row: the cast keeps the
    row-major order, and the one row's entry q is entry q of the vector (N = 1 included).
  * The unit-stride block of A whole rows of an [R, M] matrix at the offsets (off, 0) is the A consecutive rows of the
    matrix from row off: entry (k, j) of the block is entry (off + k, 0 + j) of the matrix.
-/
import Idealize.ShloMosaic.PureOps.Ideal
import Idealize.ShloMosaic.Lib.ValueIdx
import Idealize.ShloMosaic.Lib.Pipeline.Value
import Idealize.ShloMosaic.Lib.ValueLayout
import proofs.«112630_j80642305949836_2_alg».proof.Proof.Spec

noncomputable section

namespace Cert.LibRowsLayout

open Idealize.ShloMosaic Idealize.ShloMosaic.ValueIdx

/-- A vector cast to one row is the vector as a matrix of one row. -/
theorem shapeCast_row {N : ℕ} (b : (⟨1, ![N]⟩ : Shape).Idx → EReal) (hc : (⟨1, ![N]⟩ : Shape).ShapeCasts ⟨2, ![1, N]⟩) :
    shapeCast ⟨2, ![1, N]⟩ b hc = Cert.Spec.rowMat b := by
  funext i
  obtain ⟨u, q, rfl⟩ : ∃ (u : Fin 1) (q : Fin N), i = ix2 u q := ⟨i 0, i 1, eq_ix2 i⟩
  rw [shapeCast_a_1a_apply, Cert.Spec.rowMat_apply]

/-- The block of A whole rows of a matrix at the offsets (off, 0) is its A consecutive rows from row off. -/
theorem slice_rows {R M A off : ℕ} (h : off + A ≤ R) (x : (⟨2, ![R, M]⟩ : Shape).Idx → EReal)
    (hs : (⟨2, ![R, M]⟩ : Shape).Slices ![off, 0] ⟨2, ![A, M]⟩) :
    extractStridedSlice ⟨2, ![A, M]⟩ ![off, 0] x hs = Cert.Spec.rowsFrom A off h x := by
  funext i
  refine extractStridedSlice_apply _ x hs i _ (fun a => ?_)
  match a with
  | ⟨0, _⟩ => rfl
  | ⟨1, _⟩ => exact (Nat.zero_add _).symm

end Cert.LibRowsLayout

end
-- ==== Proof.KHost.lean ====
/-
  The idealized kernel's two results as functions of its arguments: they are the reference program's two results.

  The contents after the last region are a fold through the program: a stretch of host operations, a region, a stretch, a
  region, a stretch, a region. Reading the fold from the end:
  * the score array is the edge scorer (region 2) of the gathered embeddings, the two halves of the scorer's first weight
    matrix and its biases as rows: the reference's score, once the embeddings agree;
  * the embedding array is the second layer (region 1) of the hidden features, of the projected neighbour term and of the
    second layer's weights and bias; the hidden features and their projection are what region 0 leaves: the first layer of
    the input features and of their mean aggregate, and its product with the neighbour weights of the second layer;
  * the one step that is not a re-reading: the kernel sums the PROJECTED hidden features over the in-edges of a node and
    scales by the inverse degree, the reference sums the hidden features, scales, and projects. For real entries the two are
    equal (a finite sum exchanged with a finite sum); every float argument is real by the precondition, hence so are the
    hidden features and the inverse degree.
-/
import proofs.«112630_j80642305949836_2_alg».proof.Proof.Gen.KernelIdeal.Frame
import proofs.«112630_j80642305949836_2_alg».proof.Proof.Gen.ReferenceIdeal.Read
import proofs.«112630_j80642305949836_2_alg».proof.Proof.Spec
import proofs.«112630_j80642305949836_2_alg».proof.Proof.SpecCongr
import proofs.«112630_j80642305949836_2_alg».proof.Proof.KBlocks
import proofs.«112630_j80642305949836_2_alg».proof.Proof.KAfter
import proofs.«112630_j80642305949836_2_alg».proof.Proof.KArgs
import proofs.«112630_j80642305949836_2_alg».proof.Proof.RefRead
import proofs.«112630_j80642305949836_2_alg».proof.Proof.Finite
import proofs.«112630_j80642305949836_2_alg».proof.Proof.Agg2
import proofs.«112630_j80642305949836_2_alg».proof.Proof.LibRowsLayout

set_option maxRecDepth 16384

noncomputable section

namespace Cert.KernelIdeal.KHost

open Cert.KernelIdeal Cert.KernelIdeal.Gen Idealize.ShloMosaic Idealize.ShloMosaic.TcCoe Idealize.SL.Sem Cert.Spec

variable [Cert.Pre_finite_inputs.Facts]
variable (m : (ℓ : Loc nD τ sig) → Buf (Elt Ideal) ℓ) (ρ : Dev nD → PrngReg)

/-- The first layer's inputs as region 0 finds them give the reference's first layer. -/
theorem entry0 (c : Dev nD) :
    layerTwo (V1 m ρ c main_arg0) (V1 m ρ c main_v20) (V1 m ρ c main_arg5) (V1 m ρ c main_arg6) (V1 m ρ c main_v21)
      = Cert.ReferenceIdeal.Read.val_main_v27 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  rw [Cert.RefRead.ref_h1]
  exact layerTwo_congr (Cert.KernelIdeal.KArgs.w1_arg0 m ρ c) (Cert.KernelIdeal.KAfter.v1_v20 m ρ c)
    (Cert.KernelIdeal.KArgs.w1_arg5 m ρ c) (Cert.KernelIdeal.KArgs.w1_arg6 m ρ c)
    ((Cert.KernelIdeal.KAfter.v1_v21 m ρ c).trans (Cert.LibRowsLayout.shapeCast_row _ _))

/-- After region 0 the hidden-feature array is the reference's first layer. -/
theorem w2_h1 (c : Dev nD) : W2 m ρ c (Proc.devRef .tc main_v22_0)
    = Cert.ReferenceIdeal.Read.val_main_v27 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) :=
  (W2_arr m ρ c 6).trans ((Cert.KernelIdeal.KBlocks.final0_6 (V1 m ρ) c).trans (entry0 m ρ c))

/-- After region 0 the second output array is that layer's product with the neighbour weights of the second layer. -/
theorem w2_p1 (c : Dev nD) : W2 m ρ c (Proc.devRef .tc main_v22_1)
    = proj (Cert.ReferenceIdeal.Read.val_main_v27 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg9)) :=
  (W2_arr m ρ c 7).trans ((Cert.KernelIdeal.KBlocks.final0_7 (V1 m ρ) c).trans
    (proj_congr (entry0 m ρ c) (Cert.KernelIdeal.KArgs.w1_arg9 m ρ c)))

/-- THE ONE ALGEBRAIC STEP: the neighbour term region 1 finds — projected features gathered, summed per node, scaled — is the
    projection of the reference's mean aggregate of the hidden features. -/
theorem v3_agg (h : Cert.Pre_KernelIdeal m) (c : Dev nD) : V3 m ρ c main_v34
    = proj (Cert.ReferenceIdeal.Read.val_main_v39 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg9)) := by
  refine (Cert.KernelIdeal.KAfter.v3_v34 m ρ c).trans ?_
  rw [Cert.KernelIdeal.KArgs.w2_arg2 m ρ c, Cert.KernelIdeal.KArgs.w2_arg1 m ρ c, w2_p1 m ρ c,
    (Cert.KernelIdeal.KArgs.w2_v8 m ρ c).trans (Cert.KernelIdeal.KAfter.v1_v8 m ρ c)]
  exact Cert.Agg2.agg2 _ _ _ _ _ _ _ (Cert.Finite.real_arg0 m h c) (Cert.Finite.real_arg5 m h c) (Cert.Finite.real_arg6 m h c)
    (Cert.Finite.real_arg7 m h c) (Cert.Finite.real_arg9 m h c) _ _

/-- After region 1 the embedding array is the reference's second layer. -/
theorem w4_h2 (h : Cert.Pre_KernelIdeal m) (c : Dev nD) : W4 m ρ c (Proc.devRef .tc main_v36)
    = Cert.ReferenceIdeal.Read.val_main_v46 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 4).trans ((Cert.KernelIdeal.KBlocks.final1_4 (V3 m ρ) c).trans ?_)
  rw [Cert.RefRead.ref_h2]
  exact layerAdd_congr ((Cert.KernelIdeal.KArgs.w3_v22_0 m ρ c).trans (w2_h1 m ρ c)) (v3_agg m ρ h c)
    (Cert.KernelIdeal.KArgs.w3_arg8 m ρ c)
    ((Cert.KernelIdeal.KAfter.v3_v35 m ρ c).trans (by rw [Cert.KernelIdeal.KArgs.w2_arg10 m ρ c]; exact Cert.LibRowsLayout.shapeCast_row _ _))

/-- The embedding array at the end of the run. -/
theorem w6_h2 (h : Cert.Pre_KernelIdeal m) (c : Dev nD) : W6 m ρ c (Proc.devRef .tc main_v36)
    = Cert.ReferenceIdeal.Read.val_main_v46 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (Cert.KernelIdeal.KArgs.w6_v36 m ρ c).trans (w4_h2 m ρ h c)

/-- The score array at the end of the run is the reference's score. -/
theorem w6_score (h : Cert.Pre_KernelIdeal m) (c : Dev nD) : W6 m ρ c (Proc.devRef .tc main_v56)
    = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 7).trans ((Cert.KernelIdeal.KBlocks.final2_7 (V5 m ρ) c).trans ?_)
  rw [Cert.RefRead.ref_score]
  refine edgeScore_congr ?_ ?_ ?_ ?_ ?_ (Cert.KernelIdeal.KArgs.w5_arg13 m ρ c) ?_
  · refine (Cert.KernelIdeal.KAfter.v5_v44 m ρ c).trans ?_
    rw [w4_h2 m ρ h c, Cert.KernelIdeal.KArgs.w4_arg3 m ρ c]
    rfl
  · refine (Cert.KernelIdeal.KAfter.v5_v51 m ρ c).trans ?_
    rw [w4_h2 m ρ h c, Cert.KernelIdeal.KArgs.w4_arg4 m ρ c]
    rfl
  · refine (Cert.KernelIdeal.KAfter.v5_v52 m ρ c).trans ?_
    rw [Cert.KernelIdeal.KArgs.w4_arg11 m ρ c]
    exact Cert.LibRowsLayout.slice_rows _ _ _
  · refine (Cert.KernelIdeal.KAfter.v5_v53 m ρ c).trans ?_
    rw [Cert.KernelIdeal.KArgs.w4_arg11 m ρ c]
    exact Cert.LibRowsLayout.slice_rows _ _ _
  · refine (Cert.KernelIdeal.KAfter.v5_v54 m ρ c).trans ?_
    rw [Cert.KernelIdeal.KArgs.w4_arg12 m ρ c]
    exact Cert.LibRowsLayout.shapeCast_row _ _
  · refine (Cert.KernelIdeal.KAfter.v5_v55 m ρ c).trans ?_
    rw [Cert.KernelIdeal.KArgs.w4_arg14 m ρ c]
    exact Cert.LibRowsLayout.shapeCast_row _ _

end Cert.KernelIdeal.KHost

end
-- ==== Proof.lean ====
/-
  The certificate of a two-layer mean-aggregating graph network followed by an edge scorer, computed by three tiled kernels
  among host gathers and segment sums, against its plain reference, on extended reals.

  The three frames are the generated ones (the reference's is its generated run with the results dropped), and the
  idealization rewrote no operation. For the value claim the kernel's run is stated with its two results read at the contents
  after the last region (KRun); those contents are unfolded region by region and stretch by stretch (KBlocks: each region's
  output arrays are one stage of Spec applied to the arrays it finds; KAfter, KArgs: what the host operations between the
  regions compute and leave alone), and identified with the reference's stages (RefRead). The first layer and the edge scorer
  agree with the reference's by re-association of finite sums alone. The second layer differs in the order of a projection
  and a mean aggregation over the in-edges of a node, equal for real entries (LibSegmentSum, Agg2); all entries are real
  because every float argument is (Finite, RefReal). The witnesses of the existential are the kernel's two final arrays.
-/
import proofs.«112630_j80642305949836_2_alg».proof.Defs
import proofs.«112630_j80642305949836_2_alg».proof.Proof.Gen.Kernel
import proofs.«112630_j80642305949836_2_alg».proof.Proof.Gen.Kernel.Skeleton
import proofs.«112630_j80642305949836_2_alg».proof.Proof.Gen.Kernel.Launch
import proofs.«112630_j80642305949836_2_alg».proof.Proof.Gen.Kernel.Points
import proofs.«112630_j80642305949836_2_alg».proof.Proof.Gen.Kernel.Frame
import proofs.«112630_j80642305949836_2_alg».proof.Proof.Gen.KernelIdeal
import proofs.«112630_j80642305949836_2_alg».proof.Proof.Gen.KernelIdeal.Skeleton
import proofs.«112630_j80642305949836_2_alg».proof.Proof.Gen.KernelIdeal.Launch
import proofs.«112630_j80642305949836_2_alg».proof.Proof.Gen.KernelIdeal.Points
import proofs.«112630_j80642305949836_2_alg».proof.Proof.Gen.KernelIdeal.Frame
import proofs.«112630_j80642305949836_2_alg».proof.Proof.Gen.ReferenceIdeal
import proofs.«112630_j80642305949836_2_alg».proof.Proof.Gen.Pre_finite_inputs
import proofs.«112630_j80642305949836_2_alg».proof.Proof.Gen.ReferenceIdeal.Run
import proofs.«112630_j80642305949836_2_alg».proof.Proof.Gen.ReferenceIdeal.Read
import proofs.«112630_j80642305949836_2_alg».proof.Proof.KRun
import proofs.«112630_j80642305949836_2_alg».proof.Proof.KHost
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs, from memories agreeing on the arguments, end with the same score array and the same embedding array: the
    kernel's final contents of those two arrays, which are the reference's stages of the common arguments. -/
theorem algebraic : Cert.algebraic_KernelIdeal_ReferenceIdeal := by
  intro m ρ m' ρ' hpre hagree
  refine ⟨fun c => Cert.KernelIdeal.Gen.W6 m ρ c (Proc.devRef .tc Cert.KernelIdeal.main_v56),
    fun c => Cert.KernelIdeal.Gen.W6 m ρ c (Proc.devRef .tc Cert.KernelIdeal.main_v36),
    Cert.KernelIdeal.KRun.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v76_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    exact (Cert.KernelIdeal.KHost.w6_score m ρ hpre c).symm
  · rw [Cert.ReferenceIdeal.Read.val_main_v46_eq, (hagree c).1, (hagree c).2.1, (hagree c).2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]
    exact (Cert.KernelIdeal.KHost.w6_h2 m ρ hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
